-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x40 : Shape := ⟨2, ![131072, 40]⟩
abbrev S1024x16 : Shape := ⟨2, ![1024, 16]⟩
abbrev S40 : Shape := ⟨1, ![40]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel

variable [Facts]

def fn {F : FTy → Type} [FloatOps F] (main_arg0 : IVec S131072x40 32) (main_arg1 : FVec F S1024x16 .f32) (main_arg2 : IVec S40 32) : IVec S_ 1 :=
  let main_v0 : FVec F S1024x16 .f32 := Host.absf main_arg1
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  main_v3
-- ==== Kernel.lean ====
abbrev S131072x40 : Shape := ⟨2, ![131072, 40]⟩
abbrev S1024x16 : Shape := ⟨2, ![1024, 16]⟩
abbrev S40 : Shape := ⟨1, ![40]⟩
abbrev S_ : Shape := ⟨0, ![]⟩
abbrev S40x1 : Shape := ⟨2, ![40, 1]⟩
abbrev S40x16 : Shape := ⟨2, ![40, 16]⟩
abbrev S1x640 : Shape := ⟨2, ![1, 640]⟩
abbrev S640 : Shape := ⟨1, ![640]⟩
abbrev S40x640 : Shape := ⟨2, ![40, 640]⟩
abbrev S40x131072 : Shape := ⟨2, ![40, 131072]⟩
abbrev S131072x640 : Shape := ⟨2, ![131072, 640]⟩
abbrev S40x8192 : Shape := ⟨2, ![40, 8192]⟩
abbrev S8192x640 : Shape := ⟨2, ![8192, 640]⟩

abbrev nBuf : Space → Nat
  | .hbm => 41
  | .vmem => 6
  | .smem => 0
  | _ => 0

abbrev bufTy : (tb : Table) → Fin (tcTables nBuf tb) → BufTy
  | .hbm, ⟨0, _⟩ => ⟨S131072x40, .i32⟩
  | .hbm, ⟨1, _⟩ => ⟨S1024x16, .f32⟩
  | .hbm, ⟨2, _⟩ => ⟨S40, .i32⟩
  | .hbm, ⟨3, _⟩ => ⟨S_, .i32⟩
  | .hbm, ⟨4, _⟩ => ⟨S40, .i32⟩
  | .hbm, ⟨5, _⟩ => ⟨S40, .i1⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S40, .i32⟩
  | .hbm, ⟨10, _⟩ => ⟨S40x1, .i32⟩
  | .hbm, ⟨11, _⟩ => ⟨S40x16, .f32⟩
  | .hbm, ⟨12, _⟩ => ⟨S1x640, .f32⟩
  | .hbm, ⟨13, _⟩ => ⟨S640, .i32⟩
  | .hbm, ⟨14, _⟩ => ⟨S1x640, .i32⟩
  | .hbm, ⟨15, _⟩ => ⟨S_, .i32⟩
  | .hbm, ⟨16, _⟩ => ⟨S_, .i32⟩
  | .hbm, ⟨17, _⟩ => ⟨S1x640, .i32⟩
  | .hbm, ⟨18, _⟩ => ⟨S1x640, .i32⟩
  | .hbm, ⟨19, _⟩ => ⟨S1x640, .i32⟩
  | .hbm, ⟨20, _⟩ => ⟨S_, .i32⟩
  | .hbm, ⟨21, _⟩ => ⟨S1x640, .i32⟩
  | .hbm, ⟨22, _⟩ => ⟨S1x640, .i1⟩
  | .hbm, ⟨23, _⟩ => ⟨S1x640, .i32⟩
  | .hbm, ⟨24, _⟩ => ⟨S1x640, .i32⟩
  | .hbm, ⟨25, _⟩ => ⟨S_, .i32⟩
  | .hbm, ⟨26, _⟩ => ⟨S1x640, .i32⟩
  | .hbm, ⟨27, _⟩ => ⟨S1x640, .i1⟩
  | .hbm, ⟨28, _⟩ => ⟨S1x640, .i1⟩
  | .hbm, ⟨29, _⟩ => ⟨S_, .i32⟩
  | .hbm, ⟨30, _⟩ => ⟨S1x640, .i32⟩
  | .hbm, ⟨31, _⟩ => ⟨S1x640, .i32⟩
  | .hbm, ⟨32, _⟩ => ⟨S1x640, .i32⟩
  | .hbm, ⟨33, _⟩ => ⟨S40, .i32⟩
  | .hbm, ⟨34, _⟩ => ⟨S40x1, .i32⟩
  | .hbm, ⟨35, _⟩ => ⟨S40x640, .i32⟩
  | .hbm, ⟨36, _⟩ => ⟨S40x640, .i32⟩
  | .hbm, ⟨37, _⟩ => ⟨S40x640, .i1⟩
  | .hbm, ⟨38, _⟩ => ⟨S40x640, .bf16⟩
  | .hbm, ⟨39, _⟩ => ⟨S40x131072, .i32⟩
  | .hbm, ⟨40, _⟩ => ⟨S131072x640, .f32⟩
  | .local _ .vmem, ⟨0, _⟩ => ⟨S40x8192, .i32⟩
  | .local _ .vmem, ⟨1, _⟩ => ⟨S40x8192, .i32⟩
  | .local _ .vmem, ⟨2, _⟩ => ⟨S40x640, .bf16⟩
  | .local _ .vmem, ⟨3, _⟩ => ⟨S1x640, .f32⟩
  | .local _ .vmem, ⟨4, _⟩ => ⟨S8192x640, .f32⟩
  | .local _ .vmem, ⟨5, _⟩ => ⟨S8192x640, .f32⟩
  | _, _ => ⟨S131072x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S40 : S_.BroadcastsInDim S40 (![] : Fin 0 → Fin S40.rank)
  bcast_S40_S40x1_0 : S40.BroadcastsInDim S40x1 (![0] : Fin 1 → Fin S40x1.rank)
  shapeCasts_S40x16_S1x640 : S40x16.ShapeCasts S1x640
  bcast_S640_S1x640_1 : S640.BroadcastsInDim S1x640 (![1] : Fin 1 → Fin S1x640.rank)
  bcast_S_S1x640 : S_.BroadcastsInDim S1x640 (![] : Fin 0 → Fin S1x640.rank)
  bcast_S1x640_S40x640_0_1 : S1x640.BroadcastsInDim S40x640 (![0, 1] : Fin 2 → Fin S40x640.rank)
  bcast_S40x1_S40x640_0_1 : S40x1.BroadcastsInDim S40x640 (![0, 1] : Fin 2 → Fin S40x640.rank)
  transposes_S131072x40_S40x131072_1_0 : S131072x40.Transposes [1, 0] S40x131072
  inb_S40x8192_S40x8192_0_0 : ∀ a, (![0, 0] : Fin 2 → Nat) a + S40x8192.size a ≤ S40x8192.size a
  h_S40x8192 : 0 < S40x8192.numel
  shapeCasts_S40x8192_S40x8192 : S40x8192.ShapeCasts S40x8192
  inb_S40x640_S40x640_0_0 : ∀ a, (![0, 0] : Fin 2 → Nat) a + S40x640.size a ≤ S40x640.size a
  h_S40x640 : 0 < S40x640.numel
  shapeCasts_S40x640_S40x640 : S40x640.ShapeCasts S40x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S8192x640 : S1x640.Broadcasts S8192x640
  inb_S8192x640_S8192x640_0_0 : ∀ a, (![0, 0] : Fin 2 → Nat) a + S8192x640.size a ≤ S8192x640.size a
  h_S8192x640 : 0 < S8192x640.numel
  gather_S1024x16_S40x1_S40x16_1_0_n_n_0_1_116_wf : GatherDims.WF S1024x16 S40x1 S40x16 [1] [0] [] [0] [] 1 ![1, 16]
  dot_S40x8192_S40x640_S8192x640_0_0_1_1_n_n_wf : DotDims.WF S40x8192 S40x640 S8192x640 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x8192.size a ≤ S40x131072.size a
  hwx0_0 : ∀ i : grid0.Coords, EltTy.bits .i32 = 32 ∨ (Rect.block (s := S40x131072) S40x8192.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x640.size a ≤ S40x640.size a
  hwx0_1 : ∀ i : grid0.Coords, EltTy.bits .bf16 = 32 ∨ (Rect.block (s := S40x640) S40x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x640.size a ≤ S131072x640.size a
  hwx0_3 : ∀ i : grid0.Coords, EltTy.bits .f32 = 32 ∨ (Rect.block (s := S131072x640) S8192x640.size (cc0_transform_3 i) (hinb0_3 i)).WholeWords (EltTy.packing .f32)

variable [Facts₀]

def gather_S1024x16_S40x1_S40x16_1_0_n_n_0_1_116 : GatherDims S1024x16 S40x1 S40x16 where
  offsetDims := [1]
  collapsedSliceDims := [0]
  operandBatchingDims := []
  startIndicesBatchingDims := []
  startIndexMap := [0]
  indexVectorDim := 1
  sliceSizes := ![1, 16]
  wf := gather_S1024x16_S40x1_S40x16_1_0_n_n_0_1_116_wf
def dot_S40x8192_S40x640_S8192x640_0_0_1_1_n_n : DotDims S40x8192 S40x640 S8192x640 where
  lhsContracting := [0]
  rhsContracting := [0]
  lhsNonContracting := [1]
  rhsNonContracting := [1]
  lhsBatch := []
  rhsBatch := []
  wf := dot_S40x8192_S40x640_S8192x640_0_0_1_1_n_n_wf

abbrev win0_0 : Pipeline.Window sig grid0 :=
  Pipeline.Window.ofSpec (Memref.whole main_v17) S40x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S40x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8192x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x40 : Shape := ⟨2, ![131072, 40]⟩
abbrev S1024x16 : Shape := ⟨2, ![1024, 16]⟩
abbrev S40 : Shape := ⟨1, ![40]⟩
abbrev S_ : Shape := ⟨0, ![]⟩
abbrev S40x1 : Shape := ⟨2, ![40, 1]⟩
abbrev S40x16 : Shape := ⟨2, ![40, 16]⟩
abbrev S1x640 : Shape := ⟨2, ![1, 640]⟩
abbrev S640 : Shape := ⟨1, ![640]⟩
abbrev S40x640 : Shape := ⟨2, ![40, 640]⟩
abbrev S131072x640 : Shape := ⟨2, ![131072, 640]⟩
abbrev S2456x40 : Shape := ⟨2, ![2456, 40]⟩
abbrev S2456x640 : Shape := ⟨2, ![2456, 640]⟩

abbrev nBuf : Space → Nat
  | .hbm => 44
  | .vmem => 5
  | .smem => 0
  | _ => 0

abbrev bufTy : (tb : Table) → Fin (tcTables nBuf tb) → BufTy
  | .hbm, ⟨0, _⟩ => ⟨S131072x40, .i32⟩
  | .hbm, ⟨1, _⟩ => ⟨S1024x16, .f32⟩
  | .hbm, ⟨2, _⟩ => ⟨S40, .i32⟩
  | .hbm, ⟨3, _⟩ => ⟨S_, .i32⟩
  | .hbm, ⟨4, _⟩ => ⟨S40, .i32⟩
  | .hbm, ⟨5, _⟩ => ⟨S40, .i1⟩
  | .hbm, ⟨6, _⟩ => ⟨S_, .i32⟩
  | .hbm, ⟨7, _⟩ => ⟨S40, .i32⟩
  | .hbm, ⟨8, _⟩ => ⟨S40, .i32⟩
  | .hbm, ⟨9, _⟩ => ⟨S40, .i32⟩
  | .hbm, ⟨10, _⟩ => ⟨S40x1, .i32⟩
  | .hbm, ⟨11, _⟩ => ⟨S40x16, .f32⟩
  | .hbm, ⟨12, _⟩ => ⟨S1x640, .f32⟩
  | .hbm, ⟨13, _⟩ => ⟨S640, .i32⟩
  | .hbm, ⟨14, _⟩ => ⟨S1x640, .i32⟩
  | .hbm, ⟨15, _⟩ => ⟨S_, .i32⟩
  | .hbm, ⟨16, _⟩ => ⟨S_, .i32⟩
  | .hbm, ⟨17, _⟩ => ⟨S1x640, .i32⟩
  | .hbm, ⟨18, _⟩ => ⟨S1x640, .i32⟩
  | .hbm, ⟨19, _⟩ => ⟨S1x640, .i32⟩
  | .hbm, ⟨20, _⟩ => ⟨S_, .i32⟩
  | .hbm, ⟨21, _⟩ => ⟨S1x640, .i32⟩
  | .hbm, ⟨22, _⟩ => ⟨S1x640, .i1⟩
  | .hbm, ⟨23, _⟩ => ⟨S1x640, .i32⟩
  | .hbm, ⟨24, _⟩ => ⟨S1x640, .i32⟩
  | .hbm, ⟨25, _⟩ => ⟨S_, .i32⟩
  | .hbm, ⟨26, _⟩ => ⟨S1x640, .i32⟩
  | .hbm, ⟨27, _⟩ => ⟨S1x640, .i1⟩
  | .hbm, ⟨28, _⟩ => ⟨S1x640, .i1⟩
  | .hbm, ⟨29, _⟩ => ⟨S_, .i32⟩
  | .hbm, ⟨30, _⟩ => ⟨S1x640, .i32⟩
  | .hbm, ⟨31, _⟩ => ⟨S1x640, .i32⟩
  | .hbm, ⟨32, _⟩ => ⟨S1x640, .i32⟩
  | .hbm, ⟨33, _⟩ => ⟨S40, .i32⟩
  | .hbm, ⟨34, _⟩ => ⟨S40x1, .i32⟩
  | .hbm, ⟨35, _⟩ => ⟨S40x640, .i32⟩
  | .hbm, ⟨36, _⟩ => ⟨S40x640, .i32⟩
  | .hbm, ⟨37, _⟩ => ⟨S40x640, .i1⟩
  | .hbm, ⟨38, _⟩ => ⟨S_, .f32⟩
  | .hbm, ⟨39, _⟩ => ⟨S40x640, .f32⟩
  | .hbm, ⟨40, _⟩ => ⟨S40x640, .f32⟩
  | .hbm, ⟨41, _⟩ => ⟨S40x640, .f32⟩
  | .hbm, ⟨42, _⟩ => ⟨S131072x40, .f32⟩
  | .hbm, ⟨43, _⟩ => ⟨S131072x640, .f32⟩
  | .local _ .vmem, ⟨0, _⟩ => ⟨S2456x40, .f32⟩
  | .local _ .vmem, ⟨1, _⟩ => ⟨S2456x40, .f32⟩
  | .local _ .vmem, ⟨2, _⟩ => ⟨S40x640, .f32⟩
  | .local _ .vmem, ⟨3, _⟩ => ⟨S2456x640, .f32⟩
  | .local _ .vmem, ⟨4, _⟩ => ⟨S2456x640, .f32⟩
  | _, _ => ⟨S131072x40, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![54], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2456x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2456x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S40 : S_.BroadcastsInDim S40 (![] : Fin 0 → Fin S40.rank)
  bcast_S40_S40x1_0 : S40.BroadcastsInDim S40x1 (![0] : Fin 1 → Fin S40x1.rank)
  shapeCasts_S40x16_S1x640 : S40x16.ShapeCasts S1x640
  bcast_S640_S1x640_1 : S640.BroadcastsInDim S1x640 (![1] : Fin 1 → Fin S1x640.rank)
  bcast_S_S1x640 : S_.BroadcastsInDim S1x640 (![] : Fin 0 → Fin S1x640.rank)
  bcast_S1x640_S40x640_0_1 : S1x640.BroadcastsInDim S40x640 (![0, 1] : Fin 2 → Fin S40x640.rank)
  bcast_S40x1_S40x640_0_1 : S40x1.BroadcastsInDim S40x640 (![0, 1] : Fin 2 → Fin S40x640.rank)
  bcast_S_S40x640 : S_.BroadcastsInDim S40x640 (![] : Fin 0 → Fin S40x640.rank)
  inb_S2456x40_S2456x40_0_0 : ∀ a, (![0, 0] : Fin 2 → Nat) a + S2456x40.size a ≤ S2456x40.size a
  h_S2456x40 : 0 < S2456x40.numel
  shapeCasts_S2456x40_S2456x40 : S2456x40.ShapeCasts S2456x40
  inb_S40x640_S40x640_0_0 : ∀ a, (![0, 0] : Fin 2 → Nat) a + S40x640.size a ≤ S40x640.size a
  h_S40x640 : 0 < S40x640.numel
  shapeCasts_S40x640_S40x640 : S40x640.ShapeCasts S40x640
  inb_S2456x640_S2456x640_0_0 : ∀ a, (![0, 0] : Fin 2 → Nat) a + S2456x640.size a ≤ S2456x640.size a
  h_S2456x640 : 0 < S2456x640.numel
  gather_S1024x16_S40x1_S40x16_1_0_n_n_0_1_116_wf : GatherDims.WF S1024x16 S40x1 S40x16 [1] [0] [] [0] [] 1 ![1, 16]
  dot_S2456x40_S40x640_S2456x640_1_0_0_1_n_n_wf : DotDims.WF S2456x40 S40x640 S2456x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2456x40.size a < S131072x40.size a
  hwx0_0 : ∀ i : grid0.Coords, EltTy.bits .f32 = 32 ∨ (Rect.unit (s := S131072x40) (fun a => cc0_transform_0 i a * S2456x40.size a) (fun a => (Pipeline.Clip.of (cc0_transform_0 i a) (S2456x40.size a) (S131072x40.size a)).extent (S2456x40.size a)) fun a => Pipeline.Clip.inb (Pipeline.Clip.ok_of (hstart0_0 i a))).WholeWords (EltTy.packing .f32)
  hwxs0_0 : ∀ i : grid0.Coords, EltTy.bits .f32 = 32 ∨ (Rect.unit (s := S2456x40) (fun _ => 0) (fun a => (Pipeline.Clip.of (cc0_transform_0 i a) (S2456x40.size a) (S131072x40.size a)).extent (S2456x40.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x640.size a ≤ S40x640.size a
  hwx0_1 : ∀ i : grid0.Coords, EltTy.bits .f32 = 32 ∨ (Rect.block (s := S40x640) S40x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2456x640.size a < S131072x640.size a
  hwx0_2 : ∀ i : grid0.Coords, EltTy.bits .f32 = 32 ∨ (Rect.unit (s := S131072x640) (fun a => cc0_transform_2 i a * S2456x640.size a) (fun a => (Pipeline.Clip.of (cc0_transform_2 i a) (S2456x640.size a) (S131072x640.size a)).extent (S2456x640.size a)) fun a => Pipeline.Clip.inb (Pipeline.Clip.ok_of (hstart0_2 i a))).WholeWords (EltTy.packing .f32)
  hwxs0_2 : ∀ i : grid0.Coords, EltTy.bits .f32 = 32 ∨ (Rect.unit (s := S2456x640) (fun _ => 0) (fun a => (Pipeline.Clip.of (cc0_transform_2 i a) (S2456x640.size a) (S131072x640.size a)).extent (S2456x640.size a)) fun a => (Nat.zero_add _).trans_le (Pipeline.Clip.extent_le (Pipeline.Clip.ok_of (hstart0_2 i a)))).WholeWords (EltTy.packing .f32)

variable [Facts₀]

def gather_S1024x16_S40x1_S40x16_1_0_n_n_0_1_116 : GatherDims S1024x16 S40x1 S40x16 where
  offsetDims := [1]
  collapsedSliceDims := [0]
  operandBatchingDims := []
  startIndicesBatchingDims := []
  startIndexMap := [0]
  indexVectorDim := 1
  sliceSizes := ![1, 16]
  wf := gather_S1024x16_S40x1_S40x16_1_0_n_n_0_1_116_wf
def dot_S2456x40_S40x640_S2456x640_1_0_0_1_n_n : DotDims S2456x40 S40x640 S2456x640 where
  lhsContracting := [1]
  rhsContracting := [0]
  lhsNonContracting := [0]
  rhsNonContracting := [1]
  lhsBatch := []
  rhsBatch := []
  wf := dot_S2456x40_S40x640_S2456x640_1_0_0_1_n_n_wf

abbrev win0_0 : Pipeline.Window sig grid0 :=
  Pipeline.Window.ofSpecClip (Memref.whole main_v17) S2456x40.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v16) S40x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v18) S2456x640.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.TransposedProductEntry.lean ====
/-
  One entry of the kernel body's result, over the extended reals.

  The body converts its integer block to floats, multiplies the TRANSPOSE of that block by the
  mask block (the product contracts the LEADING axis of both operands, into a zero accumulator),
  and scales column `q` of the product by entry `q` of the row. So entry `(p, q)` of the result is

      (∑ d < 40, (x0 (d, p) as a signed integer) · x1 (d, q)) · x2 (0, q).
-/
import proofs.«103730_g2000104622588471_pallasbulk_207_5_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Blocks

open Cert.KernelIdeal Cert.KernelIdeal.Gen Idealize.ShloMosaic Idealize.ShloMosaic.ValueIdx

/-- The product contracting the leading axis of both operands, into the zero accumulator, read at
    `(p, q)`: the sum over the contracted coordinate `d` of `A (d, p) · B (d, q)`. -/
theorem transposedProduct_apply (A : FVec Ideal S40x8192 .bf16) (B : FVec Ideal S40x640 .bf16)
    (p : Fin 8192) (q : Fin 640) :
    matmul dot_S40x8192_S40x640_S8192x640_0_0_1_1_n_n none A B (constant (F := Ideal) S8192x640 .f32 0x00000000#32) (ix2 p q)
      = ∑ d : Fin 40, A (ix2 d p) * B (ix2 d q) := by
  show FloatOps.matmul dot_S40x8192_S40x640_S8192x640_0_0_1_1_n_n none A B (constant (F := Ideal) S8192x640 .f32 0x00000000#32) (ix2 p q) = _
  rw [Ideal.matmul_constant_zero_apply,
    ← Equiv.sum_comp (contrEquiv1 dot_S40x8192_S40x640_S8192x640_0_0_1_1_n_n 40 rfl rfl).symm]
  refine Finset.sum_congr rfl fun d _ => ?_
  have cd := contrEquiv1_symm_val dot_S40x8192_S40x640_S8192x640_0_0_1_1_n_n 40 rfl rfl d
  have hl : dot_S40x8192_S40x640_S8192x640_0_0_1_1_n_n.lhsIdx (ix2 p q)
      ((contrEquiv1 dot_S40x8192_S40x640_S8192x640_0_0_1_1_n_n 40 rfl rfl).symm d) = ix2 d p := by
    funext ax; apply Fin.ext
    match ax with
    | ⟨0, _⟩ =>
      exact (dot_S40x8192_S40x640_S8192x640_0_0_1_1_n_n.lhsIdx_val_of_single (cl := (0 : Fin 2)) rfl _ _).trans cd
    | ⟨1, _⟩ => simp [DotDims.lhsIdx, dot_S40x8192_S40x640_S8192x640_0_0_1_1_n_n]; rfl
  have hr : dot_S40x8192_S40x640_S8192x640_0_0_1_1_n_n.rhsIdx (ix2 p q)
      ((contrEquiv1 dot_S40x8192_S40x640_S8192x640_0_0_1_1_n_n 40 rfl rfl).symm d) = ix2 d q := by
    funext ax; apply Fin.ext
    match ax with
    | ⟨0, _⟩ =>
      exact (dot_S40x8192_S40x640_S8192x640_0_0_1_1_n_n.rhsIdx_val_of_single (cr := (0 : Fin 2)) rfl _ _).trans cd
    | ⟨1, _⟩ => simp [DotDims.rhsIdx, dot_S40x8192_S40x640_S8192x640_0_0_1_1_n_n]; rfl
  rw [hl, hr]

/-- The row `[1, 640]` broadcast over the 8192 rows reads, at `(p, q)`, its entry `(0, q)`. -/
theorem rowBroadcast_apply (r : FVec Ideal S1x640 .f32) (p : Fin 8192) (q : Fin 640) :
    broadcastTo S8192x640 r broadcasts_S1x640_S8192x640 (ix2 p q) = r (ix2 (0 : Fin 1) q) := by
  refine broadcastTo_apply r _ (ix2 p q) (ix2 (0 : Fin 1) q) fun a => ?_
  match a with
  | ⟨0, _⟩ => rfl
  | ⟨1, _⟩ => rfl

/-- ENTRY `(p, q)` of the body's result: the integer block's column `p`, read as signed integers,
    against the mask's column `q`, scaled by the row's entry `q`. -/
theorem payload_entry (x0 : Vec Ideal S40x8192 .i32) (x1 : Vec Ideal S40x640 .bf16) (x2 : Vec Ideal S1x640 .f32)
    (p : Fin 8192) (q : Fin 640) :
    k0_pay1 x0 x1 x2 (ix2 p q)
      = (∑ d : Fin 40, (((x0 (ix2 d p) : BitVec 32).toInt : ℝ) : EReal) * (x1 : S40x640.Idx → EReal) (ix2 d q))
          * (x2 : S1x640.Idx → EReal) (ix2 (0 : Fin 1) q) := by
  unfold k0_pay1
  rw [mulf_apply, shapeCast_self, shapeCast_self, shapeCast_self, transposedProduct_apply, rowBroadcast_apply]
  rfl

end Cert.KernelIdeal.Blocks

end
-- ==== Proof.KernelBlocks.lean ====
/-
  The idealized kernel's result array as ONE function of the three arrays its region finds.

  The grid has 16 points. Point `t` reads columns `8192 t … 8192 t + 8191` of the integer table
  `T : [40, 131072]`, the whole mask `M : [40, 640]` and the whole row `R : [1, 640]`, and writes rows
  `8192 t … 8192 t + 8191` of the result `[131072, 640]`. Entry `(p, q)` of what it writes is
  `(∑ d < 40, T (d, 8192 t + p) · M (d, q)) · R (0, q)` (the table read as signed integers), which is
  entry `(8192 t + p, q)` of

      productArray T M R (b, j) = (∑ d < 40, T (d, b) · M (d, j)) · R (0, j).

  The 16 row blocks tile the result (row `b` lies in block `b / 8192`), so after the run the result
  array IS `productArray T M R`.
-/
import proofs.«103730_g2000104622588471_pallasbulk_207_5_alg».proof.Proof.Gen.KernelIdeal.Value
import proofs.«103730_g2000104622588471_pallasbulk_207_5_alg».proof.Proof.TransposedProductEntry

noncomputable section

open scoped BigOperators

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

/-- The origin of a rank-2 shape. -/
theorem origin2 : (![0, 0] : Fin 2 → Nat) = fun _ => 0 := funext fun a => by fin_cases a <;> rfl

/-- The result as a function of the table `T`, the mask `M` and the row `R`: entry `(b, j)` is column `b`
    of the table (as signed integers) against column `j` of the mask, scaled by entry `j` of the row. -/
def productArray (T : S40x131072.Idx → BitVec 32) (M : S40x640.Idx → EReal) (R : S1x640.Idx → EReal) :
    S131072x640.Idx → EReal :=
  fun i => (∑ d : Fin 40, (((T (ix2 d (i 0))).toInt : ℝ) : EReal) * M (ix2 d (i 1))) * R (ix2 (0 : Fin 1) (i 1))

/-- The block indices at each of the 16 points: the table's block moves along its second axis with the
    point, the result's along its first; the mask's and the row's one block stays at the origin. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (m : (ℓ : Loc nD τ sig) → Buf (Elt Ideal) ℓ)

/-- The table's block at point `t`, at `(d, p)`, is the table at `(d, 8192 t + p)`. -/
theorem tableBlock_apply (c : Dev nD) (t : Fin cfg0.N) (x : S40x8192.Idx) (k : S40x131072.Idx)
    (hk0 : (k 0).val = (x 0).val) (hk1 : (k 1).val = 8192 * t.val + (x 1).val) :
    (iblk m c 0 t : Vec Ideal S40x8192 .i32) x = (V m c main_v17 : S40x131072.Idx → BitVec 32) k := by
  obtain ⟨e00, e01, -, -, -, -, -, -⟩ := index_facts t
  unfold iblk
  rw [View.read_apply]
  show V m c main_v17 _ = V m c main_v17 k
  refine congrArg _ ?_
  funext a
  apply Fin.ext
  match a with
  | ⟨0, _⟩ => show win0_0.index t (0 : Fin 2) * 40 + 1 * (x 0).val = (k 0).val; omega
  | ⟨1, _⟩ => show win0_0.index t (1 : Fin 2) * 8192 + 1 * (x 1).val = (k 1).val; omega

/-- The mask's block at every point is the whole mask. -/
theorem maskBlock_apply (c : Dev nD) (t : Fin cfg0.N) (x k : S40x640.Idx)
    (hk0 : (k 0).val = (x 0).val) (hk1 : (k 1).val = (x 1).val) :
    (iblk m c 1 t : Vec Ideal S40x640 .bf16) x = (V m c main_v16 : S40x640.Idx → EReal) k := by
  obtain ⟨-, -, e10, e11, -, -, -, -⟩ := index_facts t
  unfold iblk
  rw [View.read_apply]
  show V m c main_v16 _ = V m c main_v16 k
  refine congrArg _ ?_
  funext a
  apply Fin.ext
  match a with
  | ⟨0, _⟩ => show win0_1.index t (0 : Fin 2) * 40 + 1 * (x 0).val = (k 0).val; omega
  | ⟨1, _⟩ => show win0_1.index t (1 : Fin 2) * 640 + 1 * (x 1).val = (k 1).val; omega

/-- The row's block at every point is the whole row (its first axis has the one coordinate 0). -/
theorem rowBlock_apply (c : Dev nD) (t : Fin cfg0.N) (x k : S1x640.Idx)
    (hk1 : (k 1).val = (x 1).val) :
    (iblk m c 2 t : Vec Ideal S1x640 .f32) x = (V m c main_v7 : S1x640.Idx → EReal) k := by
  obtain ⟨-, -, -, -, e20, e21, -, -⟩ := index_facts t
  have hx : (x 0).val < 1 := (x 0).isLt
  have hk : (k 0).val < 1 := (k 0).isLt
  unfold iblk
  rw [View.read_apply]
  show V m c main_v7 _ = V m c main_v7 k
  refine congrArg _ ?_
  funext a
  apply Fin.ext
  match a with
  | ⟨0, _⟩ => show win0_2.index t (0 : Fin 2) * 1 + 1 * (x 0).val = (k 0).val; omega
  | ⟨1, _⟩ => show win0_2.index t (1 : Fin 2) * 640 + 1 * (x 1).val = (k 1).val; omega

/-- WHAT POINT `t` WRITES BACK is rows `8192 t … 8192 t + 8191` of `productArray` of the three arrays:
    entry `(p, q)` of the body's result over the three blocks is, block by block, entry `(8192 t + p, q)`
    of the product. -/
theorem flushed_eq (c : Dev nD) (t : Fin cfg0.N) :
    (dats m 0 c).flushed 3 t = ((cfg0.win 3).blk t).view.read (Elt Ideal)
      (productArray (V m c main_v17) (V m c main_v16) (V m c main_v7)) := by
  rw [Value.flushed3]
  unfold Gen.out0_3
  rw [View.canon_unit_zero origin2]
  simp only [View.ld_unit_zero (S := S40x8192) origin2, View.ld_unit_zero (S := S40x640) origin2,
    View.ld_unit_zero (S := S1x640) origin2]
  funext j
  obtain ⟨p, q, rfl⟩ : ∃ (p : Fin 8192) (q : Fin 640), j = ix2 p q := ⟨j 0, j 1, eq_ix2 j⟩
  obtain ⟨-, -, -, -, -, -, e30, e31⟩ := index_facts t
  have hi0 : ((((cfg0.win 3).blk t).view.emb (ix2 p q)) 0).val = 8192 * t.val + p.val := by
    show win0_3.index t (0 : Fin 2) * 8192 + 1 * p.val = _; omega
  have hi1 : ((((cfg0.win 3).blk t).view.emb (ix2 p q)) 1).val = q.val := by
    show win0_3.index t (1 : Fin 2) * 640 + 1 * q.val = _; omega
  show k0_pay1 (iblk m c 0 t) (iblk m c 1 t) (iblk m c 2 t) (ix2 p q)
    = productArray (V m c main_v17) (V m c main_v16) (V m c main_v7) (((cfg0.win 3).blk t).view.emb (ix2 p q))
  refine (payload_entry (iblk m c 0 t) (iblk m c 1 t) (iblk m c 2 t) p q).trans ?_
  unfold productArray
  refine congrArg₂ (· * ·) (Finset.sum_congr rfl fun d _ => congrArg₂ (· * ·) ?_ ?_) ?_
  · rw [tableBlock_apply m c t (ix2 d p) (ix2 d ((((cfg0.win 3).blk t).view.emb (ix2 p q)) 0)) rfl hi0]
  · exact maskBlock_apply m c t (ix2 d q) (ix2 d ((((cfg0.win 3).blk t).view.emb (ix2 p q)) 1)) rfl hi1
  · exact rowBlock_apply m c t (ix2 (0 : Fin 1) q) (ix2 (0 : Fin 1) ((((cfg0.win 3).blk t).view.emb (ix2 p q)) 1)) hi1

end Blocks

/-- An index of the result is in point `t`'s block iff each coordinate is in the block's range on its axis. -/
theorem mem_block (t : Fin cfg0.N) (i : S131072x640.Idx) :
    i ∈ ((cfg0.win 3).blk t).view.set ↔ ∀ a : Fin 2, win0_3.index t a * S8192x640.size a ≤ (i a).val
      ∧ (i a).val < win0_3.index t a * S8192x640.size a + S8192x640.size a := by
  show i ∈ ((View.whole main_v18).slice (win0_3.rect t)).set ↔ _
  rw [View.set_slice_whole, Rect.mem_set_unit]
  exact Iff.rfl

/-- THE BLOCKS COVER THE RESULT: row `b` lies in the block of point `b / 8192`. -/
theorem cover (i : S131072x640.Idx) :
    ∃ t : Fin cfg0.N, (cfg0.win 3).flush t = true ∧ i ∈ ((cfg0.win 3).blk t).view.set := by
  have hi0 : (i 0).val < 131072 := (i 0).isLt
  have hi1 : (i 1).val < 640 := (i 1).isLt
  obtain ⟨t, ht⟩ : ∃ t : Fin cfg0.N, t.val = (i 0).val / 8192 :=
    ⟨⟨(i 0).val / 8192, by show (i 0).val / 8192 < 16; omega⟩, rfl⟩
  obtain ⟨-, -, -, -, -, -, e30, e31⟩ := index_facts t
  refine ⟨t, flush0_3 t, ?_⟩
  rw [mem_block]
  intro a
  match a with
  | ⟨0, _⟩ =>
    show win0_3.index t (0 : Fin 2) * 8192 ≤ (i 0).val ∧ (i 0).val < win0_3.index t (0 : Fin 2) * 8192 + 8192
    omega
  | ⟨1, _⟩ =>
    show win0_3.index t (1 : Fin 2) * 640 ≤ (i 1).val ∧ (i 1).val < win0_3.index t (1 : Fin 2) * 640 + 640
    omega

/-- THE RESULT ARRAY after the run: at `(b, j)`, column `b` of the table (as signed integers) against column
    `j` of the mask, scaled by entry `j` of the row — each array as the region finds it. -/
theorem kernel_array (m : (ℓ : Loc nD τ sig) → Buf (Elt Ideal) ℓ) (c : Dev nD) :
    (Gen.dats m 0 c).arrAt 3 cfg0.N
      = fun i : S131072x640.Idx =>
          (∑ d : Fin 40, ((((V m c main_v17 : S40x131072.Idx → BitVec 32) (ix2 d (i 0))).toInt : ℝ) : EReal)
              * (V m c main_v16 : S40x640.Idx → EReal) (ix2 d (i 1)))
            * (V m c main_v7 : S1x640.Idx → EReal) (ix2 (0 : Fin 1) (i 1)) :=
  (dats m 0 c).arrAt_eq_of_cover 3 (productArray (V m c main_v17) (V m c main_v16) (V m c main_v7))
    (fun t _ => flushed_eq m c t) cover

end Cert.KernelIdeal.Blocks

end
-- ==== Proof.Forms.lean ====
/-
  Scaled field embeddings, in the two arrangements the two programs compute.

  Data: an integer table `x` of 131072 rows and 40 fields, a 0/1 mask `σ` of 40 rows and 640 lanes (lane `j`
  belongs to field `j / 16`; nothing here uses which lanes are marked), and one row `g` of 640 extended reals
  (the embedding rows of the 40 fields laid end to end). Both arrangements produce, at row `b` and lane `j`,
  a sum over the 40 fields `d` of the integer `x b d`:

  * `scaled`: the integers are first weighted by the mask bit read as the number 0 or 1 and summed, and the sum
    is then multiplied by `g j`;
  * `masked`: each integer is multiplied by `g j` where the mask bit is set and by 0 where it is not, and the
    products are summed.

  On the extended reals a product does not distribute over a sum when the factor is infinite, so the two agree
  where `g j` is a real number; that law is proved in `Proof/FormsAgree.lean`.
-/
import Idealize.ShloMosaic.Lib.ValueIdx
import Idealize.ShloMosaic.PureOps.Ideal

noncomputable section

open scoped BigOperators

namespace Cert.Embed

open Idealize.ShloMosaic Idealize.ShloMosaic.ValueIdx

/-- The integer table: 131072 rows, 40 fields. -/
abbrev ST : Shape := ⟨2, ![131072, 40]⟩
/-- The mask: 40 fields, 640 lanes. -/
abbrev SM : Shape := ⟨2, ![40, 640]⟩
/-- The row of embeddings: 640 lanes. -/
abbrev SG : Shape := ⟨2, ![1, 640]⟩
/-- The result: 131072 rows, 640 lanes. -/
abbrev SO : Shape := ⟨2, ![131072, 640]⟩

/-- The integer `x b d` as an extended real. -/
def intAt (x : IVec ST 32) (b : Fin 131072) (d : Fin 40) : EReal := (((x (ix2 b d)).toInt : ℝ) : EReal)

/-- The mask bit at field `d`, lane `j`, read as the number 0 or 1. -/
def bitAt (σ : IVec SM 1) (d : Fin 40) (j : Fin 640) : EReal := (((σ (ix2 d j)).toNat : ℝ) : EReal)

/-- Weight by the mask bit, sum over the fields, then scale by the lane's embedding entry. -/
def scaled (x : IVec ST 32) (σ : IVec SM 1) (g : FVec Ideal SG .f32) : FVec Ideal SO .f32 :=
  fun i => (∑ d : Fin 40, intAt x (i 0) d * bitAt σ d (i 1)) * g (ix2 (0 : Fin 1) (i 1))

/-- Scale by the lane's embedding entry where the mask bit is set and by zero elsewhere, then sum over the fields. -/
def masked (x : IVec ST 32) (σ : IVec SM 1) (g : FVec Ideal SG .f32) : FVec Ideal SO .f32 :=
  fun i => ∑ d : Fin 40, intAt x (i 0) d * (if σ (ix2 d (i 1)) = 1 then g (ix2 (0 : Fin 1) (i 1)) else 0)

end Cert.Embed

end
-- ==== Proof.HostGlue.lean ====
/-
  The two small arrays both programs prepare on the host before their kernels run.

  * The field mask: a [40, 640] array of bits, the bit at (d, j) saying whether lane `j` belongs to field `d`.
    It is computed from the lane numbers 0‥639 by a floor division by 16 (truncating division, lowered by one
    where the signs differ and the remainder is not zero) compared with the field numbers 0‥39. Nothing in this
    certificate evaluates it: the two programs compute the same array, and the law between their results holds
    for any mask.
  * The gathered row: the offsets list, its negative entries raised by 1024, selects 40 rows of the [1024, 16]
    table; the [40, 16] array of those rows is laid out as one row of 640 entries.

  Both are written here once, over their shapes' side conditions, so that each program's buffers can be
  identified with them.
-/
import Idealize.ShloMosaic.Lib.ValueIdx
import Idealize.ShloMosaic.PureOps.Ideal
import proofs.«103730_g2000104622588471_pallasbulk_207_5_alg».proof.Proof.Forms

noncomputable section

namespace Cert.Embed

open Idealize.ShloMosaic Idealize.ShloMosaic.ValueIdx

abbrev S0 : Shape := ⟨0, ![]⟩
abbrev S40 : Shape := ⟨1, ![40]⟩
abbrev S640 : Shape := ⟨1, ![640]⟩
abbrev S40x1 : Shape := ⟨2, ![40, 1]⟩
abbrev S40x16 : Shape := ⟨2, ![40, 16]⟩
/-- The table of embedding rows: 1024 rows of width 16. -/
abbrev SW : Shape := ⟨2, ![1024, 16]⟩

section Mask

variable (hLane : S640.BroadcastsInDim SG (![1] : Fin 1 → Fin SG.rank))
  (hScal : S0.BroadcastsInDim SG (![] : Fin 0 → Fin SG.rank))

/-- The lane numbers 0‥639 as a [1, 640] row. -/
def lanes : IVec SG 32 := broadcastInDim SG ![1] hLane (iotaInDim S640 32 0)

/-- The divisor 16 (passed through an integer conversion that changes nothing). -/
def sixteen : IVec S0 32 := id (constantI S0 32 16#32)

/-- The truncated quotient of each lane number by 16. -/
def truncQuot : IVec SG 32 := Host.divsi (lanes hLane) (broadcastInDim SG ![] hScal sixteen)

/-- The field of each lane: the floor of the lane number over 16 — the truncated quotient, lowered by one where
    the lane number's sign differs from the divisor's and the remainder is not zero. -/
def laneField : IVec SG 32 :=
  select
    (andi
      (cmpi .ne (signi (lanes hLane)) (broadcastInDim SG ![] hScal (signi sixteen)))
      (cmpi .ne (Host.remsi (lanes hLane) (broadcastInDim SG ![] hScal sixteen))
        (broadcastInDim SG ![] hScal (constantI S0 32 0#32))))
    (subi (truncQuot hLane hScal) (broadcastInDim SG ![] hScal (constantI S0 32 1#32)))
    (truncQuot hLane hScal)

variable (hRow : SG.BroadcastsInDim SM (![0, 1] : Fin 2 → Fin SM.rank))
  (hCol : S40.BroadcastsInDim S40x1 (![0] : Fin 1 → Fin S40x1.rank))
  (hColB : S40x1.BroadcastsInDim SM (![0, 1] : Fin 2 → Fin SM.rank))

/-- The mask: the bit at (d, j) is set where lane `j`'s field is `d`. -/
def fieldMask : IVec SM 1 :=
  cmpi .eq (broadcastInDim SM ![0, 1] hRow (laneField hLane hScal))
    (broadcastInDim SM ![0, 1] hColB (broadcastInDim S40x1 ![0] hCol (iotaInDim S40 32 0)))

end Mask

section Row

variable {F : FTy → Type} [FloatOps F]
variable (G : GatherDims SW S40x1 S40x16) (hCast : S40x16.ShapeCasts SG)
  (hScal40 : S0.BroadcastsInDim S40 (![] : Fin 0 → Fin S40.rank))
  (hCol : S40.BroadcastsInDim S40x1 (![0] : Fin 1 → Fin S40x1.rank))

/-- The offsets with the negative ones raised by 1024, as a [40, 1] column of row numbers. -/
def rowNumbers (o : IVec S40 32) : IVec S40x1 32 :=
  broadcastInDim S40x1 ![0] hCol
    (select (cmpi .slt o (broadcastInDim S40 ![] hScal40 (constantI S0 32 0#32)))
      (addi o (broadcastInDim S40 ![] hScal40 (constantI S0 32 1024#32))) o)

/-- The 40 selected rows of the table laid end to end as one row of 640 entries. -/
def gatheredRow (w : FVec F SW .f32) (o : IVec S40 32) : FVec F SG .f32 :=
  shapeCast SG (Host.gather G w (rowNumbers hScal40 hCol o)) hCast

end Row

end Cert.Embed

end
-- ==== Proof.KernelGlue.lean ====
/-
  What three arrays hold when the first program's kernel starts.

  Before its kernel the program prepares, on the host, three arrays from its inputs (the integer table, the table
  of embedding rows and the offsets list):

  * the integer table transposed, fields along the rows;
  * the field mask — the bit at (d, j) saying whether lane `j` belongs to field `d` — converted to the numbers 0 and 1;
  * the selected embedding rows laid end to end as one row of 640 entries.

  Each is the composition of the host operations that produce it, read off in order; the mask and the row are the
  closed terms of `Proof/HostGlue.lean`.
-/
import proofs.«103730_g2000104622588471_pallasbulk_207_5_alg».proof.Proof.Gen.KernelIdeal.Frame
import Idealize.ShloMosaic.Lib.StableHlo.Run
import Idealize.ShloMosaic.PureOps.Ideal
import proofs.«103730_g2000104622588471_pallasbulk_207_5_alg».proof.Proof.HostGlue

set_option maxRecDepth 16384

noncomputable section

namespace Cert.KernelIdeal.Glue

open Cert.KernelIdeal Cert.KernelIdeal.Gen Idealize.ShloMosaic Idealize.ShloMosaic.TcCoe Idealize.SL.Sem

variable (m : (ℓ : Loc nD τ sig) → Buf (Elt Ideal) ℓ) (c : Dev nD)

/-- The kernel's first operand is the integer table transposed: 40 rows of 131072 entries. -/
theorem table_transposed : (V m c main_v17 : S40x131072.Idx → BitVec 32)
    = transpose S40x131072 [1, 0] (m ((c : Thread nD τ).loc main_arg0)) Facts₀.transposes_S131072x40_S40x131072_1_0 := by
  dsimp only [Gen.V]
  simp only [Gen.hostOps0, Gen.hostOps0_1, Gen.hostOps0_2, List.flatten_cons, List.flatten_nil, List.append_nil, List.cons_append, List.nil_append]
  after_results

set_option maxHeartbeats 1000000 in
/-- The kernel's third operand is the row of the 40 selected embedding rows laid end to end. -/
theorem row_gathered : (V m c main_v7 : S1x640.Idx → EReal)
    = Cert.Embed.gatheredRow (F := Ideal) gather_S1024x16_S40x1_S40x16_1_0_n_n_0_1_116 Facts₀.shapeCasts_S40x16_S1x640 Facts₀.bcast_S_S40 Facts₀.bcast_S40_S40x1_0
        (m ((c : Thread nD τ).loc main_arg1)) (m ((c : Thread nD τ).loc main_arg2)) := by
  dsimp only [Gen.V]
  simp only [Gen.hostOps0, Gen.hostOps0_1, Gen.hostOps0_2, List.flatten_cons, List.flatten_nil, List.append_nil, List.cons_append, List.nil_append]
  after_results
  rfl

set_option maxHeartbeats 1000000 in
/-- The kernel's second operand is the field mask with each bit read as the number 0 or 1. The floor division that
    computes each lane's field passes its operands and results through typed views of the same buffers; those
    views are identities. -/
theorem mask_bits : (V m c main_v16 : S40x640.Idx → EReal)
    = uitofp (F := Ideal) .bf16 (Cert.Embed.fieldMask Facts₀.bcast_S640_S1x640_1 Facts₀.bcast_S_S1x640 Facts₀.bcast_S1x640_S40x640_0_1 Facts₀.bcast_S40_S40x1_0 Facts₀.bcast_S40x1_S40x640_0_1) := by
  dsimp only [Gen.V]
  simp only [Gen.hostOps0, Gen.hostOps0_1, Gen.hostOps0_2, List.flatten_cons, List.flatten_nil, List.append_nil, List.cons_append, List.nil_append]
  after_results_simp
  dsimp only [StableHlo.TRef.ofBuf, StableHlo.TRef.toBuf]
  simp only [cast_eq]
  rfl

end Cert.KernelIdeal.Glue

end
-- ==== Proof.KernelValue.lean ====
/-
  The idealized kernel's result array is the `scaled` arrangement.

  At region entry the kernel's three operands are the transposed integer table, the field mask read as 0 / 1, and
  the gathered row. Its result array at (b, j) is (∑ d, table (d, b) · mask (d, j)) · row (0, j); the transposed
  table at (d, b) is the table at (b, d), so this is `scaled` of the table, the mask and the row.
-/
import proofs.«103730_g2000104622588471_pallasbulk_207_5_alg».proof.Proof.KernelBlocks
import proofs.«103730_g2000104622588471_pallasbulk_207_5_alg».proof.Proof.KernelGlue
import proofs.«103730_g2000104622588471_pallasbulk_207_5_alg».proof.Proof.HostGlue
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The field mask, over this program's side conditions. -/
abbrev mask : IVec Cert.Embed.SM 1 :=
  Cert.Embed.fieldMask Facts₀.bcast_S640_S1x640_1 Facts₀.bcast_S_S1x640 Facts₀.bcast_S1x640_S40x640_0_1
    Facts₀.bcast_S40_S40x1_0 Facts₀.bcast_S40x1_S40x640_0_1

/-- The gathered row of a table and an offsets list, over this program's side conditions. -/
abbrev row (w : FVec Ideal S1024x16 .f32) (o : IVec S40 32) : FVec Ideal Cert.Embed.SG .f32 :=
  Cert.Embed.gatheredRow (F := Ideal) gather_S1024x16_S40x1_S40x16_1_0_n_n_0_1_116 Facts₀.shapeCasts_S40x16_S1x640
    Facts₀.bcast_S_S40 Facts₀.bcast_S40_S40x1_0 w o

/-- The closed form of the kernel's result at the transposed table, the mask read as 0 / 1 and a row is the
    `scaled` arrangement of the table, the mask and the row: the transposed table at (d, b) is the table at (b, d). -/
theorem productArray_scaled (x : IVec S131072x40 32) (σ : IVec S40x640 1) (g : FVec Ideal S1x640 .f32) :
    productArray (transpose S40x131072 [1, 0] x Facts₀.transposes_S131072x40_S40x131072_1_0)
        (uitofp (F := Ideal) .bf16 σ) g
      = Cert.Embed.scaled x σ g := by
  funext i
  obtain ⟨b, j, rfl⟩ : ∃ (b : Fin 131072) (j : Fin 640), i = ix2 b j := ⟨i 0, i 1, eq_ix2 i⟩
  unfold productArray Cert.Embed.scaled
  refine congrArg (· * _) (Finset.sum_congr rfl fun d _ => ?_)
  show ((((transpose S40x131072 [1, 0] x Facts₀.transposes_S131072x40_S40x131072_1_0) (ix2 d b)).toInt : ℝ) : EReal) * _ = _
  rw [transpose_ix2_apply]
  rfl

/-- THE KERNEL'S RESULT ARRAY after the run: `scaled` of the argument table, the mask and the gathered row. -/
theorem kernel_scaled (c : Dev nD) :
    (Gen.dats m 0 c).arrAt 3 cfg0.N
      = Cert.Embed.scaled (m ((c : Thread nD τ).loc main_arg0)) mask
          (row (m ((c : Thread nD τ).loc main_arg1)) (m ((c : Thread nD τ).loc main_arg2))) := by
  have h0 : (Gen.dats m 0 c).arrAt 3 cfg0.N = productArray (V m c main_v17) (V m c main_v16) (V m c main_v7) :=
    kernel_array m c
  rw [h0, Glue.table_transposed m c, Glue.mask_bits m c, Glue.row_gathered m c]
  exact productArray_scaled _ _ _

end Cert.KernelIdeal.Blocks

end
-- ==== Proof.RefBody.lean ====
/-
  The reference's kernel body, run once on whole staging buffers.

  The body reads a [2456, 40] tile of the table and the whole [40, 640] masked matrix, multiplies them, and stores
  the [2456, 640] product over the whole result buffer (it also reads the result buffer once and drops what it
  read). So whatever the two input buffers hold — the tile's rows past the table's end included — the result
  buffer ends holding the product of exactly those contents, and the inputs are left as they were.
-/
import proofs.«103730_g2000104622588471_pallasbulk_207_5_alg».proof.Proof.Gen.ReferenceIdeal.Frame
import proofs.«103730_g2000104622588471_pallasbulk_207_5_alg».proof.Proof.Gen.ReferenceIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each is the whole buffer -/

abbrev tileRect : Rect S2456x40 := Rect.unit (s := S2456x40) ![0, 0] S2456x40.size inb_S2456x40_S2456x40_0_0
abbrev matRect : Rect S40x640 := Rect.unit (s := S40x640) ![0, 0] S40x640.size inb_S40x640_S40x640_0_0
abbrev prodRect : Rect S2456x640 := Rect.unit (s := S2456x640) ![0, 0] S2456x640.size inb_S2456x640_S2456x640_0_0

/-- What the result buffer holds after the body: its one store, of the product of what the two loads read. -/
def product (x0 : Vec F S2456x40 .f32) (x1 : Vec F S40x640 .f32) : Vec F S2456x640 .f32 :=
  View.canon [⟨prodRect, k0_pay1 (View.ld x0 tileRect) (View.ld x1 matRect)⟩]

/-- The one store covers the whole result buffer. -/
theorem store_covers (p0 : Vec F S2456x640 .f32) (y : S2456x640.Idx) :
    ∃ pc ∈ ([⟨prodRect, p0⟩] : List (View.Piece (Elt F) S2456x640 .f32)), y ∈ pc.1.set :=
  View.cover_of_tiled [⟨prodRect, p0⟩] S2456x640.size (by rfl) y

set_option maxHeartbeats 1000000 in
/-- The body on whole staging memrefs holding `x0`, `x1` and anything: the inputs are left as they were and the
    result buffer ends at `product x0 x1`. -/
theorem sound_kernel (c : Dev nD) (E : Set ℕ) (i : grid0.Coords)
    (arg1 : Memref sig .tc .vmem S2456x40 .f32) (harg1 : arg1.IsWhole)
    (arg2 : Memref sig .tc .vmem S40x640 .f32) (harg2 : arg2.IsWhole)
    (arg3 : Memref sig .tc .vmem S2456x640 .f32) (harg3 : arg3.IsWhole)
    (x0 : Vec F S2456x40 .f32) (x1 : Vec F S40x640 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (product x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

end Cert.ReferenceIdeal.Body

end
-- ==== Proof.RefProductEntry.lean ====
/-
  One entry of the reference body's product, over the extended reals.

  The body multiplies a [2456, 40] tile by the [40, 640] masked matrix into a zero accumulator. On the extended
  reals entry (p, q) of the product is the plain sum over the 40 fields d of tile (p, d) · matrix (d, q): it
  reads row p of the tile and nothing of the tile's other rows.
-/
import proofs.«103730_g2000104622588471_pallasbulk_207_5_alg».proof.Proof.Gen.ReferenceIdeal.Skeleton
import Idealize.ShloMosaic.Lib.ValueIdx
import Idealize.ShloMosaic.Lib.Pipeline.Value
import Idealize.ShloMosaic.PureOps.Ideal.Laws

noncomputable section

open scoped BigOperators

namespace Cert.ReferenceIdeal.Body

open Cert.ReferenceIdeal Cert.ReferenceIdeal.Gen Idealize.ShloMosaic Idealize.ShloMosaic.ValueIdx

/-- The product of a [2456, 40] and a [40, 640] array into the zero accumulator, read at (p, q): the sum over the
    contracted coordinate d of A (p, d) · B (d, q), whatever precision the product is asked to run at. -/
theorem plainProduct_apply (A : FVec Ideal S2456x40 .f32) (B : FVec Ideal S40x640 .f32) (p : Fin 2456) (q : Fin 640) :
    matmul dot_S2456x40_S40x640_S2456x640_1_0_0_1_n_n (some .fp32) A B (constant (F := Ideal) S2456x640 .f32 0x00000000#32) (ix2 p q)
      = ∑ d : Fin 40, A (ix2 p d) * B (ix2 d q) := by
  show FloatOps.matmul dot_S2456x40_S40x640_S2456x640_1_0_0_1_n_n (some .fp32) A B (constant (F := Ideal) S2456x640 .f32 0x00000000#32) (ix2 p q) = _
  rw [Ideal.matmul_constant_zero_apply,
    ← Equiv.sum_comp (contrEquiv1 dot_S2456x40_S40x640_S2456x640_1_0_0_1_n_n 40 rfl rfl).symm]
  refine Finset.sum_congr rfl fun d _ => ?_
  have cd := contrEquiv1_symm_val dot_S2456x40_S40x640_S2456x640_1_0_0_1_n_n 40 rfl rfl d
  have hl : dot_S2456x40_S40x640_S2456x640_1_0_0_1_n_n.lhsIdx (ix2 p q)
      ((contrEquiv1 dot_S2456x40_S40x640_S2456x640_1_0_0_1_n_n 40 rfl rfl).symm d) = ix2 p d := by
    funext ax; apply Fin.ext
    match ax with
    | ⟨0, _⟩ => simp [DotDims.lhsIdx, dot_S2456x40_S40x640_S2456x640_1_0_0_1_n_n]; rfl
    | ⟨1, _⟩ =>
      exact (dot_S2456x40_S40x640_S2456x640_1_0_0_1_n_n.lhsIdx_val_of_single (cl := (1 : Fin 2)) rfl _ _).trans cd
  have hr : dot_S2456x40_S40x640_S2456x640_1_0_0_1_n_n.rhsIdx (ix2 p q)
      ((contrEquiv1 dot_S2456x40_S40x640_S2456x640_1_0_0_1_n_n 40 rfl rfl).symm d) = ix2 d q := by
    funext ax; apply Fin.ext
    match ax with
    | ⟨0, _⟩ =>
      exact (dot_S2456x40_S40x640_S2456x640_1_0_0_1_n_n.rhsIdx_val_of_single (cr := (0 : Fin 2)) rfl _ _).trans cd
    | ⟨1, _⟩ => simp [DotDims.rhsIdx, dot_S2456x40_S40x640_S2456x640_1_0_0_1_n_n]; rfl
  rw [hl, hr]

/-- ENTRY (p, q) of the body's product: row p of the tile against column q of the matrix. -/
theorem product_entry (x0 : Vec Ideal S2456x40 .f32) (x1 : Vec Ideal S40x640 .f32) (p : Fin 2456) (q : Fin 640) :
    k0_pay1 x0 x1 (ix2 p q)
      = ∑ d : Fin 40, (x0 : S2456x40.Idx → EReal) (ix2 p d) * (x1 : S40x640.Idx → EReal) (ix2 d q) := by
  unfold k0_pay1
  rw [shapeCast_self, shapeCast_self, plainProduct_apply]

end Cert.ReferenceIdeal.Body

end
-- ==== Proof.RefTileData.lean ====
/-
  The reference's pallas_call, tile by tile, on the extended reals.

  The call walks the 131072 rows of the converted table in 54 tiles of 2456 rows. Tiles 0‥52 lie inside the table;
  tile 53 starts at row 130168 and only its first 904 rows exist, so the transfer that fetches it fills only those
  rows of the staging buffer (the other 1552 rows hold values nothing names), and the transfer that writes the
  result tile back writes only those 904 rows. Because entry (p, q) of the product reads row p of the tile alone,
  the rows that exist are computed from rows that exist: the result array ends holding, at (b, j), the sum over the
  40 fields d of table (b, d) · matrix (d, j), for every one of the 131072 rows.
-/
import proofs.«103730_g2000104622588471_pallasbulk_207_5_alg».proof.Proof.RefBody
import proofs.«103730_g2000104622588471_pallasbulk_207_5_alg».proof.Proof.RefProductEntry
import Idealize.ShloMosaic.Lib.Pipeline.Kit

set_option maxRecDepth 16384

noncomputable section

open scoped BigOperators

namespace Cert.ReferenceIdeal.Body

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Where each tile lies -/

/-- Decided over the 54 grid points: tile `t` of the table and of the result starts at row `2456 t` and spans all
    columns; the matrix is one block; the table's and the result's tiles are cut to the same number of rows, and
    that number reaches the end of the array or of the tile, whichever comes first. -/
theorem tile_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_0.xsize (grid0.coords t) (0 : Fin 2) = win0_2.xsize (grid0.coords t) (0 : Fin 2)
    ∧ win0_0.xsize (grid0.coords t) (1 : Fin 2) = 40
    ∧ win0_2.xsize (grid0.coords t) (1 : Fin 2) = 640
    ∧ t.val * 2456 + win0_2.xsize (grid0.coords t) (0 : Fin 2) = min ((t.val + 1) * 2456) 131072 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_0.xsize (grid0.coords t) (0 : Fin 2) = win0_2.xsize (grid0.coords t) (0 : Fin 2)
    ∧ win0_0.xsize (grid0.coords t) (1 : Fin 2) = 40
    ∧ win0_2.xsize (grid0.coords t) (1 : Fin 2) = 640
    ∧ t.val * 2456 + win0_2.xsize (grid0.coords t) (0 : Fin 2) = min ((t.val + 1) * 2456) 131072)

/-! ## The arrays the region finds, and the whole product -/

/-- The converted table, as the region finds it. -/
abbrev tableF (c : Dev nD) : S131072x40.Idx → EReal := V m c main_v17
/-- The masked matrix, as the region finds it. -/
abbrev matrixF (c : Dev nD) : S40x640.Idx → EReal := V m c main_v16

/-- The product of the whole table with the matrix: at (b, j) the sum over the fields d of table (b, d) · matrix (d, j). -/
def wholeProduct (c : Dev nD) : S131072x640.Idx → EReal :=
  fun i => ∑ d : Fin 40, tableF m c (ix2 (i 0) d) * matrixF m c (ix2 d (i 1))

/-! ## The proof data -/

/-- After the body at tile `t`: the table's buffer holds the tile's rows inside the table (zero past them), the
    matrix's buffer the matrix, and the result's buffer the whole product's tile on the rows inside the array
    (zero past them). Of the rows past the array's end the body obligation states nothing; the zeros are a
    filler nothing reads. -/
def dats (_ : Fin 1) (c : Dev nD) : Dat τ (Elt Ideal) Unit ℕ (UR sig nD τ) ℕ cfg0 c where
  A w := V m c (Pipeline.arrRef spec0 w)
  after w t := match w with
    | ⟨0, _⟩ => (cfg0.win 0).fill (grid0.coords t) (fun _ => (0 : EReal)) (iblk m c 0 t)
    | ⟨1, _⟩ => iblk m c 1 t
    | ⟨2, _⟩ => (cfg0.win 2).fill (grid0.coords t) (fun _ => (0 : EReal))
        (((cfg0.win 2).blk t).view.read (Elt Ideal) (wholeProduct m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_table (c : Dev nD) (t : Fin cfg0.N) :
    (dats m 0 c).after 0 t = (cfg0.win 0).fill (grid0.coords t) (fun _ => (0 : EReal)) (iblk m c 0 t) := by dsimp only [dats]
theorem after_matrix (c : Dev nD) (t : Fin cfg0.N) : (dats m 0 c).after 1 t = iblk m c 1 t := by dsimp only [dats]
theorem after_result (c : Dev nD) (t : Fin cfg0.N) :
    (dats m 0 c).after 2 t = (cfg0.win 2).fill (grid0.coords t) (fun _ => (0 : EReal))
      (((cfg0.win 2).blk t).view.read (Elt Ideal) (wholeProduct m c)) := by dsimp only [dats]

/-! ## What the body finds in each buffer -/

/-- The table's buffer, just fetched: the tile's rows inside the table, and `d` past them. -/
theorem before_table (c : Dev nD) (t : Fin cfg0.N) (d) :
    (dats m 0 c).before 0 t d = (cfg0.win 0).fill (grid0.coords t) d (iblk m c 0 t) := by
  unfold Dat.before; rw [if_pos (fetch0_0 t)]
  unfold Dat.fetched Dat.blockOf iblk; rw [A_eq]

/-- The matrix's buffer holds the matrix at every tile. -/
theorem before_matrix (c : Dev nD) (t : Fin cfg0.N) (d) : (dats m 0 c).before 1 t d = iblk m c 1 t :=
  before0_1_of m (dats m 0 c) (A_eq m c 1) (after_matrix m c) t d

/-- The result's buffer holds anything: every tile is written back, so the buffer is fresh at each. -/
theorem before_result (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The product on the rows inside the array -/

/-- The body's result is the product of its two loads (the one store covers the buffer, the loads are whole). -/
theorem product_eq (x0 : Vec Ideal S2456x40 .f32) (x1 : Vec Ideal S40x640 .f32) : product x0 x1 = k0_pay1 x0 x1 := by
  have hz : (![0, 0] : Fin 2 → Nat) = fun _ => 0 := funext fun a => by fin_cases a <;> rfl
  unfold product
  rw [View.canon_unit_zero hz]
  simp only [View.ld_unit_zero (S := S2456x40) hz, View.ld_unit_zero (S := S40x640) hz]

/-- Row `j 0` of the result tile's part inside the array is a row of the table tile's part inside the table:
    the two tiles are cut to the same number of rows. -/
def tileRow (t : Fin cfg0.N) (j : ((cfg0.win 2).xblock (grid0.coords t)).Idx) (d : Fin 40) :
    ((cfg0.win 0).xblock (grid0.coords t)).Idx := fun a =>
  match a with
  | ⟨0, _⟩ => ⟨(j 0).val, by
      have h := (tile_facts t).2.2.2.2.2.2.1
      have hj : (j 0).val < win0_2.xsize (grid0.coords t) (0 : Fin 2) := (j 0).isLt
      show (j 0).val < win0_0.xsize (grid0.coords t) (0 : Fin 2)
      omega⟩
  | ⟨1, _⟩ => ⟨d.val, by
      have h := (tile_facts t).2.2.2.2.2.2.2.1
      show d.val < win0_0.xsize (grid0.coords t) (1 : Fin 2)
      have := d.isLt; omega⟩

end Cert.ReferenceIdeal.Body

end
-- ==== Proof.RefTileProduct.lean ====
/-
  The reference body's product on the rows of a tile that lie inside the array.

  Tile t of the table is fetched into a [2456, 40] buffer: the rows of the tile that exist land in the buffer's
  leading rows and the rest of the buffer holds anything. Entry (p, q) of the body's product reads only row p of
  that buffer. For a row p that the result's write-back moves — a row inside the array — row p of the buffer is
  row 2456 t + p of the table, so the entry is the whole product's entry at (2456 t + p, q).
-/
import proofs.«103730_g2000104622588471_pallasbulk_207_5_alg».proof.Proof.RefTileData

set_option maxRecDepth 16384

noncomputable section

open scoped BigOperators

namespace Cert.ReferenceIdeal.Body

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The table's buffer at (p, d), for p a row of the tile inside the array: the table at (2456 t + p, d),
    whatever the buffer holds past the table's end. -/
theorem table_buffer_entry (c : Dev nD) (t : Fin cfg0.N) (d0 : S2456x40.Idx → EReal)
    (j : ((cfg0.win 2).xblock (grid0.coords t)).Idx) (hp : (j 0).val < 2456) (d : Fin 40) :
    (cfg0.win 0).fill (grid0.coords t) d0 (iblk m c 0 t) (ix2 (⟨(j 0).val, hp⟩ : Fin 2456) d)
      = tableF m c (ix2 ((((cfg0.win 2).blk t).view.emb j) 0) d) := by
  obtain ⟨i00, i01, -, -, i20, -, -, -, -, -⟩ := tile_facts t
  have hxi : ix2 (⟨(j 0).val, hp⟩ : Fin 2456) d = (cfg0.win 0).xinj (grid0.coords t) (tileRow t j d) := by
    funext a; apply Fin.ext
    match a with
    | ⟨0, _⟩ => rfl
    | ⟨1, _⟩ => rfl
  rw [hxi, Window.fill_xinj]
  unfold iblk
  rw [View.read_apply]
  show tableF m c (((cfg0.win 0).blk t).view.emb (tileRow t j d)) = tableF m c _
  refine congrArg (tableF m c) (funext fun a => Fin.ext ?_)
  match a with
  | ⟨0, _⟩ =>
    show win0_0.index t (0 : Fin 2) * 2456 + 1 * (j 0).val = win0_2.index t (0 : Fin 2) * 2456 + 1 * (j 0).val
    rw [i00, i20]
  | ⟨1, _⟩ =>
    show win0_0.index t (1 : Fin 2) * 40 + 1 * d.val = d.val
    rw [i01]; omega

/-- The matrix's buffer at (d, q): the matrix at (d, q). -/
theorem matrix_buffer_entry (c : Dev nD) (t : Fin cfg0.N)
    (j : ((cfg0.win 2).xblock (grid0.coords t)).Idx) (hq : (j 1).val < 640) (d : Fin 40) :
    iblk m c 1 t (ix2 d (⟨(j 1).val, hq⟩ : Fin 640))
      = matrixF m c (ix2 d ((((cfg0.win 2).blk t).view.emb j) 1)) := by
  obtain ⟨-, -, i10, i11, -, i21, -, -, -, -⟩ := tile_facts t
  unfold iblk
  rw [View.read_apply]
  show matrixF m c (((cfg0.win 1).blk t).view.emb (ix2 d (⟨(j 1).val, hq⟩ : Fin 640))) = matrixF m c _
  refine congrArg (matrixF m c) (funext fun a => Fin.ext ?_)
  match a with
  | ⟨0, _⟩ =>
    show win0_1.index t (0 : Fin 2) * 40 + 1 * d.val = d.val
    rw [i10]; omega
  | ⟨1, _⟩ =>
    show win0_1.index t (1 : Fin 2) * 640 + 1 * (j 1).val = win0_2.index t (1 : Fin 2) * 640 + 1 * (j 1).val
    rw [i11, i21]

/-- ON THE ROWS INSIDE THE ARRAY the body's product at tile `t` is the whole product's tile, whatever the table's
    buffer holds past the table's end (`d0`): entry (p, q) reads row p of the buffer, which for a row inside the
    array is row `2456 t + p` of the table. -/
theorem product_inside (c : Dev nD) (t : Fin cfg0.N) (d0 : S2456x40.Idx → EReal)
    (j : ((cfg0.win 2).xblock (grid0.coords t)).Idx) :
    product ((cfg0.win 0).fill (grid0.coords t) d0 (iblk m c 0 t)) (iblk m c 1 t) ((cfg0.win 2).xinj (grid0.coords t) j)
      = wholeProduct m c (((cfg0.win 2).blk t).view.emb j) := by
  have hp : (j 0).val < 2456 := Nat.lt_of_lt_of_le (j 0).isLt ((cfg0.win 2).xsize_le (grid0.coords t) 0)
  have hq : (j 1).val < 640 := Nat.lt_of_lt_of_le (j 1).isLt ((cfg0.win 2).xsize_le (grid0.coords t) 1)
  have hx : (cfg0.win 2).xinj (grid0.coords t) j = ix2 (⟨(j 0).val, hp⟩ : Fin 2456) (⟨(j 1).val, hq⟩ : Fin 640) := by
    funext a; apply Fin.ext
    match a with
    | ⟨0, _⟩ => rfl
    | ⟨1, _⟩ => rfl
  rw [product_eq, hx, product_entry]
  unfold wholeProduct
  exact Finset.sum_congr rfl fun d _ => by
    rw [table_buffer_entry m c t d0 j hp d, matrix_buffer_entry m c t j hq d]

end Cert.ReferenceIdeal.Body

end
-- ==== Proof.RefRun.lean ====
/-
  The reference's run: the body obligation at every tile, the frame, and the result array.

  At each of the 54 tiles the body finds the table's buffer just fetched (the tile's rows inside the table, anything
  past them), the matrix's buffer holding the matrix, and the result's buffer holding anything; it leaves the two
  inputs as they were and the result's buffer at their product. On the rows the write-back moves, that product is
  the whole product's tile (RefTileProduct.lean), which is all the obligation of a window cut at the array's end
  states. The 54 tiles cover the 131072 rows (row r lies in tile r / 2456), so after the run the result array is
  the whole product; the three arguments are never written.
-/
import proofs.«103730_g2000104622588471_pallasbulk_207_5_alg».proof.Proof.RefTileProduct
import Idealize.ShloMosaic.Lib.Pipeline.Kit

set_option maxRecDepth 16384

noncomputable section

open scoped BigOperators

namespace Cert.ReferenceIdeal.Body

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body obligation, at a generic tile -/

/-- What the body is called with at tile `t`: each window's current buffer at what it holds then. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the table's and the result's buffers stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (grid0.coords t) d ((cfg0.win 0).cut (grid0.coords t) ((dats m 0 c).after 0 t))))
    ∗ owns (c : Thread nD τ) (st0_1 t) fullShare ((dats m 0 c).after 1 t)
    ∗ (∃ d, owns (c : Thread nD τ) (st0_2 t) fullShare
        ((cfg0.win 2).fill (grid0.coords t) d ((cfg0.win 2).cut (grid0.coords t) ((dats m 0 c).after 2 t)))))

/-- The body at any tile: the table's buffer holds the tile filled out with anything, the matrix's the matrix; the
    result's buffer ends at their product, which on the rows inside the array is the whole product's tile. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_table, before_matrix, before_result]
  rw [show (dats m 0 c).Φ t.succ = (dats m 0 c).Φ t.castSucc from rfl,
    show (dats m 0 c).owesAt () t.succ = (dats m 0 c).owesAt () t.castSucc from rfl,
    after_table, after_matrix, after_result, Window.cut_fill, Window.cut_fill]
  iintro ⟨HΦ, Ho, ⟨%d0, H0⟩, ⟨%d1, H1⟩, ⟨%d2, H2⟩⟩
  iapply (sound_kernel (F := Ideal) c Set.univ (grid0.coords t) _ _ _ _ _ _
    ((cfg0.win 0).fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists d0; iexact H0
  isplitl [H1]; · iexact H1
  iexists product ((cfg0.win 0).fill (grid0.coords t) d0 (iblk m c 0 t)) (iblk m c 1 t)
  have hcut : (cfg0.win 2).cut (grid0.coords t) (product ((cfg0.win 0).fill (grid0.coords t) d0 (iblk m c 0 t)) (iblk m c 1 t))
      = (cfg0.win 2).cut (grid0.coords t) ((cfg0.win 2).fill (grid0.coords t) (fun _ => (0 : EReal))
          (((cfg0.win 2).blk t).view.read (Elt Ideal) (wholeProduct m c))) := by
    rw [Window.cut_fill]
    funext j
    rw [View.read_apply]
    exact product_inside m c t d0 j
  have hfill := (cfg0.win 2).fill_congr_cut (grid0.coords t) hcut
  rw [Window.cut_fill] at hfill
  rw [hfill]
  iexact H2

/-- The library's body obligation, at every tile. -/
theorem body_obligation (c : Dev nD) :
    BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the reference's @main terminates, with every array of the pipeline at what the
    proof data computes and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The reference runs and leaves its three arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## The result array -/

/-- What tile `t` writes back is the whole product's tile, cut at the array's end. -/
theorem flushed_eq (c : Dev nD) (t : Fin cfg0.N) :
    (dats m 0 c).flushed 2 t = ((cfg0.win 2).blk t).view.read (Elt Ideal) (wholeProduct m c) := by
  show (cfg0.win 2).cut (grid0.coords t) ((dats m 0 c).after 2 t) = _
  rw [after_result]; exact (cfg0.win 2).cut_fill _ _ _

/-- An index of the result array lies in tile `t`'s part inside the array iff, on each axis, it lies between the
    tile's start and the start plus the cut size. -/
theorem mem_tile (t : Fin cfg0.N) (i : S131072x640.Idx) :
    i ∈ ((cfg0.win 2).blk t).view.set ↔ ∀ a : Fin 2, win0_2.index t a * S2456x640.size a ≤ (i a).val
      ∧ (i a).val < win0_2.index t a * S2456x640.size a + win0_2.xsize (grid0.coords t) a := by
  show i ∈ ((View.whole main_v18).slice (win0_2.rect t)).set ↔ _
  rw [View.set_slice_whole, Rect.mem_set_unit]
  exact Iff.rfl

/-- Row `r` lies in tile `r / 2456`: the 54 tiles, the last cut at the array's end, cover the array. -/
theorem covered (i : S131072x640.Idx) :
    ∃ t : Fin cfg0.N, (cfg0.win 2).flush t = true ∧ i ∈ ((cfg0.win 2).blk t).view.set := by
  have hi0 : (i 0).val < 131072 := (i 0).isLt
  have hi1 : (i 1).val < 640 := (i 1).isLt
  have hq : (i 0).val / 2456 < 54 := (Nat.div_lt_iff_lt_mul (by decide)).mpr (Nat.lt_of_lt_of_le hi0 (by decide))
  have hlo : (i 0).val / 2456 * 2456 ≤ (i 0).val := Nat.div_mul_le_self _ _
  have hhi : (i 0).val < ((i 0).val / 2456 + 1) * 2456 := by
    have := Nat.lt_mul_div_succ (i 0).val (show 0 < 2456 by decide)
    rwa [Nat.mul_comm] at this
  obtain ⟨-, -, -, -, i20, i21, -, -, hc2, hend⟩ := tile_facts ⟨(i 0).val / 2456, hq⟩
  refine ⟨⟨(i 0).val / 2456, hq⟩, flush0_2 _, (mem_tile _ i).mpr fun a => ?_⟩
  match a with
  | ⟨0, _⟩ =>
    show win0_2.index ⟨(i 0).val / 2456, hq⟩ (0 : Fin 2) * 2456 ≤ (i 0).val
      ∧ (i 0).val < win0_2.index ⟨(i 0).val / 2456, hq⟩ (0 : Fin 2) * 2456
          + win0_2.xsize (grid0.coords ⟨(i 0).val / 2456, hq⟩) (0 : Fin 2)
    rw [i20, hend]
    exact ⟨hlo, lt_min hhi hi0⟩
  | ⟨1, _⟩ =>
    show win0_2.index ⟨(i 0).val / 2456, hq⟩ (1 : Fin 2) * 640 ≤ (i 1).val
      ∧ (i 1).val < win0_2.index ⟨(i 0).val / 2456, hq⟩ (1 : Fin 2) * 640
          + win0_2.xsize (grid0.coords ⟨(i 0).val / 2456, hq⟩) (1 : Fin 2)
    rw [i21, hc2, Nat.zero_mul, Nat.zero_add]
    exact ⟨Nat.zero_le _, hi1⟩

/-- THE RESULT ARRAY after the run is the whole product. -/
theorem result_array (c : Dev nD) : (dats m 0 c).arrAt 2 cfg0.N = wholeProduct m c :=
  (dats m 0 c).arrAt_eq_of_cover 2 (wholeProduct m c) (fun t _ => flushed_eq m c t) covered

/-! ## The run with the result named -/

/-- Every weakly fair execution of the reference's @main terminates with the result array at the whole product and
    the three arguments as they were. -/
theorem run_array : θ_run defs (onTc (τ := τ) (main (F := Ideal))) ⟨m, fun _ => 0, ρ⟩ (fun r => ∀ c : Dev nD,
      r.2.mem ((c.tc : Thread nD τ).loc main_v18) = wholeProduct m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 2).trans (result_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceIdeal.Body

end
-- ==== Proof.RefGlue.lean ====
/-
  What two arrays hold when the second program's kernel starts.

  Before its kernel the program prepares, on the host, two arrays from its inputs (the integer table, the table of
  embedding rows and the offsets list):

  * the integer table converted entry by entry to numbers;
  * the [40, 640] matrix holding, at (d, j), lane `j`'s entry of the row of selected embedding rows where lane `j`
    belongs to field `d`, and zero elsewhere.

  Each is the composition of the host operations that produce it, read off in order; the field mask and the row
  of selected embedding rows are the closed terms of `Proof/HostGlue.lean`.
-/
import proofs.«103730_g2000104622588471_pallasbulk_207_5_alg».proof.Proof.Gen.ReferenceIdeal.Frame
import Idealize.ShloMosaic.Lib.StableHlo.Run
import Idealize.ShloMosaic.PureOps.Ideal
import proofs.«103730_g2000104622588471_pallasbulk_207_5_alg».proof.Proof.HostGlue

set_option maxRecDepth 16384

noncomputable section

namespace Cert.ReferenceIdeal.Glue

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- The kernel's first operand is the integer table with each entry converted to a number. -/
theorem table_converted : (V m c main_v17 : S131072x40.Idx → EReal)
    = sitofp (F := Ideal) .f32 (m ((c : Thread nD τ).loc main_arg0)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

set_option maxHeartbeats 1000000 in
/-- The kernel's second operand: where the field mask is set, the row of selected embedding rows repeated down the
    40 fields; elsewhere zero. The floor division and the selection pass their operands and results through typed
    views of the same buffers; those views are identities. -/
theorem matrix_masked : (V m c main_v16 : S40x640.Idx → EReal)
    = select (Cert.Embed.fieldMask Facts₀.bcast_S640_S1x640_1 Facts₀.bcast_S_S1x640 Facts₀.bcast_S1x640_S40x640_0_1 Facts₀.bcast_S40_S40x1_0 Facts₀.bcast_S40x1_S40x640_0_1)
        (broadcastInDim S40x640 ![0, 1] Facts₀.bcast_S1x640_S40x640_0_1
          (Cert.Embed.gatheredRow (F := Ideal) gather_S1024x16_S40x1_S40x16_1_0_n_n_0_1_116 Facts₀.shapeCasts_S40x16_S1x640 Facts₀.bcast_S_S40 Facts₀.bcast_S40_S40x1_0
            (m ((c : Thread nD τ).loc main_arg1)) (m ((c : Thread nD τ).loc main_arg2))))
        (broadcastInDim S40x640 ![] Facts₀.bcast_S_S40x640 (constant (F := Ideal) S_ .f32 0x00000000#32)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  dsimp only [StableHlo.TRef.ofBuf, StableHlo.TRef.toBuf]
  simp only [cast_eq]
  rfl

end Cert.ReferenceIdeal.Glue

end
-- ==== Proof.RefValue.lean ====
/-
  The reference's whole product is the `masked` arrangement.

  At region entry the reference's two operands are the integer table converted to floats and the masked matrix:
  at (d, j) the gathered row's entry j where the field mask's bit at (d, j) is set, and zero elsewhere. So the
  whole product at (b, j), the sum over the fields d of table (b, d) · matrix (d, j), is `masked` of the table,
  the mask and the row.
-/
import proofs.«103730_g2000104622588471_pallasbulk_207_5_alg».proof.Proof.RefTileProduct
import proofs.«103730_g2000104622588471_pallasbulk_207_5_alg».proof.Proof.RefGlue
import proofs.«103730_g2000104622588471_pallasbulk_207_5_alg».proof.Proof.HostGlue
import Idealize.ShloMosaic.Lib.KernelVsHost
import Idealize.ShloMosaic.Lib.IdealHost

noncomputable section

open scoped BigOperators

namespace Cert.ReferenceIdeal.Body

open Cert.ReferenceIdeal Cert.ReferenceIdeal.Gen Idealize.ShloMosaic Idealize.ShloMosaic.TcCoe Idealize.ShloMosaic.ValueIdx
open Idealize.SL.Sem

variable (m : (ℓ : Loc nD τ sig) → Buf (Elt Ideal) ℓ)

/-- The field mask, over this program's side conditions. -/
abbrev mask : IVec Cert.Embed.SM 1 :=
  Cert.Embed.fieldMask Facts₀.bcast_S640_S1x640_1 Facts₀.bcast_S_S1x640 Facts₀.bcast_S1x640_S40x640_0_1
    Facts₀.bcast_S40_S40x1_0 Facts₀.bcast_S40x1_S40x640_0_1

/-- The gathered row of a table and an offsets list, over this program's side conditions. -/
abbrev row (w : FVec Ideal S1024x16 .f32) (o : IVec S40 32) : FVec Ideal Cert.Embed.SG .f32 :=
  Cert.Embed.gatheredRow (F := Ideal) gather_S1024x16_S40x1_S40x16_1_0_n_n_0_1_116 Facts₀.shapeCasts_S40x16_S1x640
    Facts₀.bcast_S_S40 Facts₀.bcast_S40_S40x1_0 w o

/-- The masked matrix at (d, q): the row's entry q where the mask bit at (d, q) is set, zero elsewhere. -/
theorem maskedMatrix_apply (σ : IVec S40x640 1) (g : FVec Ideal S1x640 .f32) (d : Fin 40) (q : Fin 640) :
    select σ (broadcastInDim S40x640 ![0, 1] Facts₀.bcast_S1x640_S40x640_0_1 g)
        (broadcastInDim S40x640 ![] Facts₀.bcast_S_S40x640 (constant (F := Ideal) S_ .f32 0x00000000#32)) (ix2 d q)
      = if σ (ix2 d q) = 1 then g (ix2 (0 : Fin 1) q) else 0 := by
  show Scalar.select _ _ _ = _
  rw [broadcastInDim_oneRow_apply, broadcastInDim_scalar_apply]
  show (if _ = 1 then _ else Ideal.ofBits .f32 0x00000000#32) = _
  rw [Ideal.ofBits_zero_f32]

/-- The whole product is the `masked` arrangement: the converted table at (b, d) is the integer `x b d`, and the
    masked matrix at (d, j) is the row's entry j where the mask bit is set and zero elsewhere. -/
theorem wholeProduct_masked (c : Dev nD) :
    wholeProduct m c
      = Cert.Embed.masked (m ((c : Thread nD τ).loc main_arg0)) mask
          (row (m ((c : Thread nD τ).loc main_arg1)) (m ((c : Thread nD τ).loc main_arg2))) := by
  funext i
  unfold wholeProduct Cert.Embed.masked
  refine Finset.sum_congr rfl fun d _ => ?_
  have ht : tableF m c = sitofp (F := Ideal) .f32 (m ((c : Thread nD τ).loc main_arg0)) := Glue.table_converted m c
  rw [ht, show matrixF m c = _ from Glue.matrix_masked m c]
  refine congr (congrArg HMul.hMul (rfl : _ = Cert.Embed.intAt _ (i 0) d)) ?_
  exact maskedMatrix_apply _ _ d (i 1)

end Cert.ReferenceIdeal.Body

end
-- ==== Proof.FormsAgree.lean ====
/-
  The two arrangements of the scaled field embedding agree where the embedding row is real-valued.

  On the extended reals `(∑ d, a d * β d) * r = ∑ d, a d * (if β d = 1 then r else 0)` when every `a d` and
  `r` are real numbers and every `β d` is a bit read as 0 or 1: all terms are then coercions of reals, the
  coercion commutes with finite sums and with products, and in ℝ the law is distributivity plus a case split on
  each bit.
-/
import proofs.«103730_g2000104622588471_pallasbulk_207_5_alg».proof.Proof.Forms
import Mathlib.Data.EReal.Operations

noncomputable section

open scoped BigOperators

namespace Cert.Embed

open Idealize.ShloMosaic Idealize.ShloMosaic.ValueIdx

/-- A finite sum of coerced reals is the coercion of the real sum. -/
theorem coe_sum_real {ι : Type*} (s : Finset ι) (f : ι → ℝ) :
    (∑ d ∈ s, (f d : EReal)) = ((∑ d ∈ s, f d : ℝ) : EReal) := by
  classical
  induction s using Finset.induction_on with
  | empty => simp
  | insert a s ha ih => rw [Finset.sum_insert ha, Finset.sum_insert ha, ih, EReal.coe_add]

/-- A one-bit value is 0 or 1. -/
theorem bit_cases (b : BitVec 1) : b = 0 ∨ b = 1 := by
  revert b; decide

/-- Scaling a bit-weighted sum of reals by a real equals summing the terms scaled where the bit is set. -/
theorem sum_bits_mul_real {ι : Type*} [Fintype ι] (a : ι → ℝ) (b : ι → BitVec 1) (r : ℝ) :
    (∑ d, (a d : EReal) * (((b d).toNat : ℝ) : EReal)) * (r : EReal)
      = ∑ d, (a d : EReal) * (if b d = 1 then (r : EReal) else 0) := by
  have hL : ∀ d, (a d : EReal) * (((b d).toNat : ℝ) : EReal) = ((a d * ((b d).toNat : ℝ) : ℝ) : EReal) :=
    fun d => (EReal.coe_mul _ _).symm
  have hR : ∀ d, (a d : EReal) * (if b d = 1 then (r : EReal) else 0)
      = ((a d * (if b d = 1 then r else 0) : ℝ) : EReal) := by
    intro d
    split_ifs
    · exact (EReal.coe_mul _ _).symm
    · simp
  simp only [hL, hR, coe_sum_real, ← EReal.coe_mul]
  congr 1
  rw [Finset.sum_mul]
  refine Finset.sum_congr rfl fun d _ => ?_
  rcases bit_cases (b d) with h | h <;> simp [h]

theorem scaled_eq_masked (x : IVec ST 32) (σ : IVec SM 1) (g : FVec Ideal SG .f32)
    (hg : ∀ j : Fin 640, ∃ r : ℝ, g (ix2 (0 : Fin 1) j) = (r : EReal)) :
    scaled x σ g = masked x σ g := by
  funext i
  obtain ⟨r, hr⟩ := hg (i 1)
  unfold scaled masked
  simp only [hr, intAt, bitAt]
  exact sum_bits_mul_real _ _ r

end Cert.Embed

end
-- ==== Proof.LibRowGatherScatter.lean ====
/-
  Rows of a table gathered and scatter-added by an integer list, read at an entry.

  A table of N rows of width D and a list of E row numbers (an [E, 1] array of integers). The row gather
  (the table indexed by the list along its first axis) yields an [E, D] array; the accumulating row scatter
  adds an [E, D] array of updates, row by row, into an [N, D] table at the rows the list names; the
  accumulating vector scatter does the same for a length-E vector into a length-N vector.

  Read at one entry:
  * the gathered array at (e, j) is the table at (row e, j), where row e is the list's e-th entry read as
    a signed integer and clamped into [0, N-1];
  * the scattered table at (n, c) is the old entry plus the sum, over the edges e whose list entry read as
    a signed integer is exactly n, of the update at (e, c) — an entry outside [0, N) meets no n and is dropped;
  * likewise the scattered vector at n is the old entry plus the sum over those e of the update at e.
  All three are generic in N, D, E and the integer width; the two scatters are stated on the extended reals,
  where the accumulation is an exact finite sum.
-/
import Idealize.ShloMosaic.Lib.ValueIdx
import Idealize.ShloMosaic.PureOps.Ideal

noncomputable section

open scoped BigOperators

namespace Cert.Lib.RowGatherScatter

open Idealize.ShloMosaic Idealize.ShloMosaic.ValueIdx

/-! ## The list's entries -/

/-- The list's e-th entry as a signed integer. -/
def entry {E w : Nat} (idx : IVec ⟨2, ![E, 1]⟩ w) (e : Fin E) : Int := (idx (ix2 e (0 : Fin 1))).toInt

/-- The row a gather reads for position e: the entry clamped into [0, N-1]. -/
def rowOf {N E w : Nat} (hN : 0 < N) (idx : IVec ⟨2, ![E, 1]⟩ w) (e : Fin E) : Fin N :=
  ⟨min (entry idx e).toNat (N - 1), by omega⟩

/-- The positions whose entry is exactly the row n: the updates a scatter adds into row n. -/
def hits {N E w : Nat} (idx : IVec ⟨2, ![E, 1]⟩ w) (n : Fin N) : Finset (Fin E) :=
  Finset.univ.filter fun e => entry idx e = (n.val : Int)

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-! ## The row gather -/

section Gather
variable {α : Type}

/-- The dimension numbers of a gather of whole rows: the one offset axis is the row's, the table's first axis
    is collapsed and is the one the list indexes, slices are one row. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gathered array at (e, j) is the table at (row e, j). -/
theorem rowGather_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N D E wf) x idx (ix2 e j) = x (ix2 (rowOf hN idx e) j) := by
  have h0 : ((rowGatherDims N D E wf).operandIdx (ix2 e j) idx (0 : Fin 2)).val = (rowOf hN idx e).val := by
    show (rowGatherDims N D E wf).start (ix2 e j) idx 0 + (rowGatherDims N D E wf).batchCoord (ix2 e j) 0
      + (rowGatherDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e j) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N D E wf).operandIdx (ix2 e j) idx (1 : Fin 2)).val = j.val := by
    show (rowGatherDims N D E wf).start (ix2 e j) idx 1 + (rowGatherDims N D E wf).batchCoord (ix2 e j) 1
      + (rowGatherDims N D E wf).offCoord (ix2 e j) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨show ¬ (1 : Fin 2) ∈ ([0] : List (Fin 2)) by decide, List.not_mem_nil⟩)]
    simp only [Nat.zero_add, Nat.add_zero]
    rfl
  unfold Host.gather
  congr 1
  funext a
  refine Fin.ext ?_
  match a with
  | ⟨0, _⟩ => exact h0
  | ⟨1, _⟩ => exact h1

end Gather

/-! ## The accumulating row scatter -/

section Scatter

/-- An axis survives `kept` exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: the updates' second axis is the window (a row), the
    table's first axis is the one the list indexes and is inserted. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N D E w : Nat} (wf : ScatterDims.WF ⟨2, ![N, D]⟩ ⟨2, ![E, 1]⟩ ⟨2, ![E, D]⟩ [1] [0] [0] 1)
  (idx : IVec ⟨2, ![E, 1]⟩ w)

/-- On the table's row axis update (e, j) lands at the list's e-th entry, unclamped. -/
theorem rowScatter_pos0 (e : Fin E) (j : Fin D) :
    (rowScatterDims N D E wf).start (ix2 e j) idx (0 : Fin 2) + ((rowScatterDims N D E wf).window (ix2 e j) (0 : Fin 2) : Int)
      = entry idx e := by
  unfold ScatterDims.start ScatterDims.window
  rw [dif_pos (show (0 : Fin 2) ∈ ([0] : List (Fin 2)) from List.mem_singleton.mpr rfl),
    dif_neg (fun h => ((mem_kept _ _).mp h) (List.mem_singleton.mpr rfl))]
  have hsi : (rowScatterDims N D E wf).siIdx (ix2 e j) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp only [Nat.cast_zero, add_zero]
  rfl

/-- On the table's column axis update (e, j) lands at column j. -/
theorem rowScatter_pos1 (e : Fin E) (j : Fin D) :
    (rowScatterDims N D E wf).start (ix2 e j) idx (1 : Fin 2) + ((rowScatterDims N D E wf).window (ix2 e j) (1 : Fin 2) : Int)
      = (j.val : Int) := by
  unfold ScatterDims.start ScatterDims.window
  rw [dif_neg (show ¬ (1 : Fin 2) ∈ ([0] : List (Fin 2)) by decide),
    dif_pos ((mem_kept _ _).mpr (show ¬ (1 : Fin 2) ∈ ([0] : List (Fin 2)) by decide))]
  simp only [zero_add]
  rfl

/-- Update (e, j) lands on the table's entry (n, c) exactly when the list's e-th entry is n and j = c. -/
theorem rowScatter_lands_iff (e : Fin E) (j : Fin D) (n : Fin N) (c : Fin D) :
    (rowScatterDims N D E wf).resultIdx? (ix2 e j) idx = some (ix2 n c) ↔ entry idx e = (n.val : Int) ∧ j = c := by
  have p0 := rowScatter_pos0 wf idx e j
  have p1 := rowScatter_pos1 wf idx e j
  unfold ScatterDims.resultIdx?
  split
  · rename_i h
    rw [Option.some.injEq]
    constructor
    · intro hf
      have h0 := congrArg (fun f => ((f (0 : Fin 2)).val : Int)) hf
      have h1 := congrArg (fun f => ((f (1 : Fin 2)).val : Int)) hf
      simp only at h0 h1
      have a0 := (h 0).1
      have a1 := (h 1).1
      rw [Int.toNat_of_nonneg a0, p0] at h0
      rw [Int.toNat_of_nonneg a1, p1] at h1
      exact ⟨h0, Fin.ext (by exact_mod_cast h1)⟩
    · rintro ⟨he, rfl⟩
      funext a
      refine Fin.ext ?_
      match a with
      | ⟨0, _⟩ =>
        show ((rowScatterDims N D E wf).start (ix2 e j) idx (0 : Fin 2) + ((rowScatterDims N D E wf).window (ix2 e j) (0 : Fin 2) : Int)).toNat = n.val
        rw [p0, he]; rfl
      | ⟨1, _⟩ =>
        show ((rowScatterDims N D E wf).start (ix2 e j) idx (1 : Fin 2) + ((rowScatterDims N D E wf).window (ix2 e j) (1 : Fin 2) : Int)).toNat = j.val
        rw [p1]; rfl
  · rename_i h
    constructor
    · intro hf; exact absurd hf (by simp)
    · rintro ⟨he, rfl⟩
      exfalso
      apply h
      intro a
      match a with
      | ⟨0, _⟩ =>
        show 0 ≤ (rowScatterDims N D E wf).start (ix2 e j) idx (0 : Fin 2) + ((rowScatterDims N D E wf).window (ix2 e j) (0 : Fin 2) : Int)
          ∧ (rowScatterDims N D E wf).start (ix2 e j) idx (0 : Fin 2) + ((rowScatterDims N D E wf).window (ix2 e j) (0 : Fin 2) : Int) < (N : Int)
        rw [p0, he]
        exact ⟨by positivity, by exact_mod_cast n.isLt⟩
      | ⟨1, _⟩ =>
        show 0 ≤ (rowScatterDims N D E wf).start (ix2 e j) idx (1 : Fin 2) + ((rowScatterDims N D E wf).window (ix2 e j) (1 : Fin 2) : Int)
          ∧ (rowScatterDims N D E wf).start (ix2 e j) idx (1 : Fin 2) + ((rowScatterDims N D E wf).window (ix2 e j) (1 : Fin 2) : Int) < (D : Int)
        rw [p1]
        exact ⟨by positivity, by exact_mod_cast j.isLt⟩

/-- The scattered table at (n, c): the old entry plus the sum over the positions whose list entry is n of the
    update at (e, c). -/
theorem rowScatterAdd_apply {φ : FTy} (x0 : FVec Ideal ⟨2, ![N, D]⟩ φ) (upd : FVec Ideal ⟨2, ![E, D]⟩ φ) (n : Fin N) (c : Fin D) :
    Host.scatterAdd (F := Ideal) (rowScatterDims N D E wf) x0 idx upd (ix2 n c)
      = x0 (ix2 n c) + ∑ e ∈ hits idx n, upd (ix2 e c) := by
  show x0 (ix2 n c) + ∑ j ∈ Finset.univ.filter (fun j => (rowScatterDims N D E wf).resultIdx? j idx = some (ix2 n c)), upd j = _
  congr 1
  rw [Finset.sum_filter, sum_idx2]
  unfold hits
  rw [Finset.sum_filter]
  refine Finset.sum_congr rfl fun e _ => ?_
  simp only [rowScatter_lands_iff wf idx e _ n c]
  by_cases he : entry idx e = (n.val : Int)
  · simp only [he, true_and, if_true]
    rw [Finset.sum_ite_eq' Finset.univ c (fun j => upd (ix2 e j))]
    simp
  · simp only [he, false_and, if_false]
    exact Finset.sum_const_zero

end Scatter

/-! ## The accumulating vector scatter -/

section VecScatter

/-- The dimension numbers of a scatter of scalars into a vector: no window axis, the vector's one axis is the one
    the list indexes. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- Update e lands at the list's e-th entry, unclamped. -/
theorem vecScatter_pos (e : Fin E) :
    (vecScatterDims N E wf).start (ix1 e) idx (0 : Fin 1) + ((vecScatterDims N E wf).window (ix1 e) (0 : Fin 1) : Int)
      = entry idx e := by
  unfold ScatterDims.start ScatterDims.window
  rw [dif_pos (show (0 : Fin 1) ∈ ([0] : List (Fin 1)) from List.mem_singleton.mpr rfl),
    dif_neg (fun h => ((mem_kept _ _).mp h) (List.mem_singleton.mpr rfl))]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp only [Nat.cast_zero, add_zero]
  rfl

/-- Update e lands on the vector's entry n exactly when the list's e-th entry is n. -/
theorem vecScatter_lands_iff (e : Fin E) (n : Fin N) :
    (vecScatterDims N E wf).resultIdx? (ix1 e) idx = some (ix1 n) ↔ entry idx e = (n.val : Int) := by
  have p0 := vecScatter_pos wf idx e
  unfold ScatterDims.resultIdx?
  split
  · rename_i h
    rw [Option.some.injEq]
    constructor
    · intro hf
      have h0 := congrArg (fun f => ((f (0 : Fin 1)).val : Int)) hf
      simp only at h0
      rw [Int.toNat_of_nonneg (h 0).1, p0] at h0
      exact h0
    · intro he
      funext a
      refine Fin.ext ?_
      match a with
      | ⟨0, _⟩ =>
        show ((vecScatterDims N E wf).start (ix1 e) idx (0 : Fin 1) + ((vecScatterDims N E wf).window (ix1 e) (0 : Fin 1) : Int)).toNat = n.val
        rw [p0, he]; rfl
  · rename_i h
    constructor
    · intro hf; exact absurd hf (by simp)
    · intro he
      exfalso
      apply h
      intro a
      match a with
      | ⟨0, _⟩ =>
        show 0 ≤ (vecScatterDims N E wf).start (ix1 e) idx (0 : Fin 1) + ((vecScatterDims N E wf).window (ix1 e) (0 : Fin 1) : Int)
          ∧ (vecScatterDims N E wf).start (ix1 e) idx (0 : Fin 1) + ((vecScatterDims N E wf).window (ix1 e) (0 : Fin 1) : Int) < (N : Int)
        rw [p0, he]
        exact ⟨by positivity, by exact_mod_cast n.isLt⟩

/-- The scattered vector at n: the old entry plus the sum over the positions whose list entry is n of the update at e. -/
theorem vecScatterAdd_apply {φ : FTy} (x0 : FVec Ideal ⟨1, ![N]⟩ φ) (upd : FVec Ideal ⟨1, ![E]⟩ φ) (n : Fin N) :
    Host.scatterAdd (F := Ideal) (vecScatterDims N E wf) x0 idx upd (ix1 n)
      = x0 (ix1 n) + ∑ e ∈ hits idx n, upd (ix1 e) := by
  show x0 (ix1 n) + ∑ j ∈ Finset.univ.filter (fun j => (vecScatterDims N E wf).resultIdx? j idx = some (ix1 n)), upd j = _
  congr 1
  rw [Finset.sum_filter, sum_idx1]
  unfold hits
  rw [Finset.sum_filter]
  refine Finset.sum_congr rfl fun e _ => ?_
  simp only [vecScatter_lands_iff wf idx e n]

end VecScatter

end Cert.Lib.RowGatherScatter

end
-- ==== Proof.FiniteRow.lean ====
/-
  From the finiteness precondition to a real-valued gathered row.

  The precondition says that every entry `x` of the table satisfies `|x| < +∞`, the conjunction taken over the
  whole table. On the extended reals `|x| = max x (-x)`, and `max x (-x) < ⊤` excludes both `x = ⊤` and
  `x = ⊥` (whose negation is `⊤`), so every entry is the coercion of a real number.

  A gather of whole rows reads, at `(e, c)`, the table at `(row e, c)`, and laying the 40 gathered rows of 16
  entries end to end puts entry `(j / 16, j % 16)` at lane `j`; so every lane of the resulting row is an entry of
  the table, hence real.
-/
import proofs.«103730_g2000104622588471_pallasbulk_207_5_alg».proof.Pre_finite_inputs
import proofs.«103730_g2000104622588471_pallasbulk_207_5_alg».proof.Proof.Gen.Pre_finite_inputs
import proofs.«103730_g2000104622588471_pallasbulk_207_5_alg».proof.Proof.LibRowGatherScatter
import Idealize.ShloMosaic.Lib.ReduceAll
import Idealize.ShloMosaic.Lib.Pipeline.Value
import Idealize.ShloMosaic.Lib.ValueIdx

noncomputable section

namespace Cert.Embed.Finite

open Idealize.ShloMosaic Idealize.ShloMosaic.ValueIdx

/-- An extended real whose absolute value `max x (-x)` is below `⊤` is a real number. -/
theorem real_of_abs_lt_top (x : EReal) (hx : max x (-x) < (⊤ : EReal)) : ∃ r : ℝ, x = (r : EReal) := by
  induction x using EReal.rec with
  | bot => simp at hx
  | coe r => exact ⟨r, rfl⟩
  | top => simp at hx

/-- The precondition (every entry of the table has absolute value below +∞) makes every entry a real number. -/
theorem table_real [Cert.Pre_finite_inputs.Facts] (a0 : IVec Cert.Pre_finite_inputs.S131072x40 32) (a1 : FVec Ideal Cert.Pre_finite_inputs.S1024x16 .f32)
    (a2 : IVec Cert.Pre_finite_inputs.S40 32) (h : Cert.Pre_finite_inputs.fn (F := Ideal) a0 a1 a2 = fun _ => 1#1) :
    ∀ i, ∃ r : ℝ, a1 i = (r : EReal) := by
  intro i
  have h0 := congrFun h ix0
  dsimp only [Cert.Pre_finite_inputs.fn] at h0
  haveI : Subsingleton Cert.Pre_finite_inputs.S_.Idx := ⟨fun a b => funext fun d => d.elim0⟩
  have hi := Host.reduce_andi_all _ _ _ _ _ h0 i
  have hc : Ideal.cmp .olt (max (a1 i) (-(a1 i))) (Ideal.ofBits .f32 0x7F800000#32) = 1#1 := hi
  have htop : Ideal.ofBits .f32 0x7F800000#32 = (⊤ : EReal) := by simp [Ideal.ofBits, Ideal.ieee]
  rw [htop] at hc
  refine real_of_abs_lt_top (a1 i) ?_
  by_contra hn
  have h1 : Ideal.cmp .olt (max (a1 i) (-(a1 i))) (⊤ : EReal) = BitVec.ofBool (decide (max (a1 i) (-(a1 i)) < (⊤ : EReal))) := rfl
  rw [h1, decide_eq_false hn] at hc
  exact absurd hc (by decide)

/-- Rows of a real-valued table gathered by any integer list and laid end to end are real-valued. -/
theorem gathered_row_real (wf : GatherDims.WF ⟨2, ![1024, 16]⟩ ⟨2, ![40, 1]⟩ ⟨2, ![40, 16]⟩ [1] [0] [] [0] [] 1 ![1, 16])
    (hsc : (⟨2, ![40, 16]⟩ : Shape).ShapeCasts ⟨2, ![1, 640]⟩)
    (w : FVec Ideal ⟨2, ![1024, 16]⟩ .f32) (hw : ∀ i, ∃ r : ℝ, w i = (r : EReal)) (idx : IVec ⟨2, ![40, 1]⟩ 32) :
    ∀ j : Fin 640, ∃ r : ℝ,
      shapeCast (⟨2, ![1, 640]⟩ : Shape) (Host.gather (Cert.Lib.RowGatherScatter.rowGatherDims 1024 16 40 wf) w idx) hsc (ix2 (0 : Fin 1) j) = (r : EReal) := by
  intro j
  have he : j.val / 16 < 40 := by have := j.isLt; omega
  have hc : j.val % 16 < 16 := Nat.mod_lt _ (by norm_num)
  rw [shapeCast_apply _ hsc (ix2 (0 : Fin 1) j) (ix2 (⟨j.val / 16, he⟩ : Fin 40) (⟨j.val % 16, hc⟩ : Fin 16)) (by
      rw [Shape.rowMajor_val_two, Shape.rowMajor_val_two]
      show j.val / 16 * 16 + j.val % 16 = 0 * 640 + j.val
      omega)]
  rw [Cert.Lib.RowGatherScatter.rowGather_apply (by norm_num : 0 < 1024)]
  exact hw _

end Cert.Embed.Finite

end
-- ==== Proof.lean ====
/-
  Scaled field embeddings: out[b, 16 d + e] = x[b, d] · weight[offsets[d], e], over 131072 rows and 40 fields of
  16 lanes, computed two ways and shown equal on the extended reals.

  Both programs prepare on the host the same two small arrays (Proof/HostGlue.lean): the field mask, whose bit at
  (d, j) says that lane j belongs to field d, and the gathered row g of 640 entries, the 40 rows of `weight` that
  `offsets` selects laid end to end.

  * The kernel multiplies the integer table, read as exact numbers, by the mask read as 0 / 1 and scales lane j of
    the product by g j: at (b, j) it yields (∑ d, x b d · bit d j) · g j (`Cert.Embed.scaled`;
    Proof/KernelBlocks.lean reads its 16 blocks of 8192 rows into that one function, Proof/KernelValue.lean
    names the operands).
  * The reference first builds the matrix holding g j where the bit at (d, j) is set and 0 elsewhere, and
    multiplies the table by it in 54 tiles of 2456 rows, the last tile cut at the table's end: at (b, j) it yields
    ∑ d, x b d · (if bit d j then g j else 0) (`Cert.Embed.masked`; Proof/RefRun.lean, Proof/RefValue.lean).

  The two sums agree when g j is a real number (Proof/FormsAgree.lean): a product does not distribute over a sum
  at an infinite factor, so this is where the precondition is used — every entry of `weight` is finite, hence so is
  every entry of a row gathered from it (Proof/FiniteRow.lean). No rewrite separates the kernel from its
  idealization, so that conjunct is trivial.
-/
import proofs.«103730_g2000104622588471_pallasbulk_207_5_alg».proof.Defs
import proofs.«103730_g2000104622588471_pallasbulk_207_5_alg».proof.Proof.Gen.Kernel
import proofs.«103730_g2000104622588471_pallasbulk_207_5_alg».proof.Proof.Gen.Kernel.Frame
import proofs.«103730_g2000104622588471_pallasbulk_207_5_alg».proof.Proof.Gen.KernelIdeal
import proofs.«103730_g2000104622588471_pallasbulk_207_5_alg».proof.Proof.Gen.KernelIdeal.Frame
import proofs.«103730_g2000104622588471_pallasbulk_207_5_alg».proof.Proof.Gen.KernelIdeal.Value
import proofs.«103730_g2000104622588471_pallasbulk_207_5_alg».proof.Proof.Gen.ReferenceIdeal
import proofs.«103730_g2000104622588471_pallasbulk_207_5_alg».proof.Proof.Gen.Pre_finite_inputs
import proofs.«103730_g2000104622588471_pallasbulk_207_5_alg».proof.Proof.KernelValue
import proofs.«103730_g2000104622588471_pallasbulk_207_5_alg».proof.Proof.RefRun
import proofs.«103730_g2000104622588471_pallasbulk_207_5_alg».proof.Proof.RefValue
import proofs.«103730_g2000104622588471_pallasbulk_207_5_alg».proof.Proof.FormsAgree
import proofs.«103730_g2000104622588471_pallasbulk_207_5_alg».proof.Proof.FiniteRow
import Idealize.ShloMosaic.Adequacy
import Idealize.ShloMosaic.Init

noncomputable section

namespace Cert.Proof

open Idealize.ShloMosaic Idealize.ShloMosaic.ValueIdx Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference, its last tile cut at the table's end. -/
theorem frame_referenceIdeal : Cert.frame_ReferenceIdeal := fun m ρ _ => Cert.ReferenceIdeal.Body.frame m ρ

/-- The idealization rewrote nothing. -/
theorem preserves : Cert.preserves_Kernel_KernelIdeal := trivial

/-- Under the precondition the gathered row is real-valued: it is made of entries of the table, all finite. -/
theorem row_real (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ j : Fin 640, ∃ r : ℝ,
      Cert.KernelIdeal.Blocks.row
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (ix2 (0 : Fin 1) j) = (r : EReal) :=
  Cert.Embed.Finite.gathered_row_real _ _ _ (Cert.Embed.Finite.table_real _ _ _ (hpre c)) _

/-- From memories that agree on the arguments both idealized programs run and end with the same result array:
    the kernel's is `scaled`, the reference's `masked`, of the same table, mask and row, and the row is real. -/
theorem algebraic : Cert.algebraic_KernelIdeal_ReferenceIdeal := by
  intro m ρ m' ρ' hpre hagree
  refine ⟨fun c => Cert.Embed.scaled
      (m ((c.tc : Thread Cert.KernelIdeal.nD Cert.KernelIdeal.τ).loc Cert.KernelIdeal.main_arg0))
      Cert.KernelIdeal.Blocks.mask
      (Cert.KernelIdeal.Blocks.row
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · exact (θ_run Cert.KernelIdeal.defs _ _).mono
      (fun r h c => ⟨(h c).1.trans (Cert.KernelIdeal.Blocks.kernel_scaled m c), (h c).2⟩)
      (Cert.KernelIdeal.Value.run_blocks m ρ)
  · refine (θ_run Cert.ReferenceIdeal.defs _ _).mono (fun r h c => ⟨?_, (h c).2⟩)
      (Cert.ReferenceIdeal.Body.run_array m' ρ')
    rw [(h c).1, Cert.ReferenceIdeal.Body.wholeProduct_masked, (hagree c).1, (hagree c).2.1, (hagree c).2.2]
    exact (Cert.Embed.scaled_eq_masked _ _ _ (row_real m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
